-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S500x128 : Shape := ⟨2, ![500, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x500 .f32) (main_arg1 : FVec F S500x128 .f32) (main_arg2 : FVec F S128 .f32) (main_arg3 : FVec F S128x64 .f32) (main_arg4 : FVec F S64 .f32) (main_arg5 : IVec S2x1600000 32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x500 : Shape := ⟨2, ![100000, 500]⟩
abbrev S500x128 : Shape := ⟨2, ![500, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x500 : Shape := ⟨2, ![2000, 500]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x500, .f32⟩
  | .hbm, ⟨1, _⟩ => ⟨S500x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x500_S500x128_S2000x128_1_0_0_1_n_n_wf : DotDims.WF S2000x500 S500x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x500 : Shape := ⟨2, ![100000, 500]⟩
abbrev S500x128 : Shape := ⟨2, ![500, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S500x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x64, .f32⟩
  | .hbm, ⟨106, _⟩ => ⟨S100000x64, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x128_S100000x128_1_0_0_1_n_n_wf : DotDims.WF S100000x500 S500x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel's run, with its result named. @main is eight segments — three stretches of host operations, the first
  kernel, a stretch, the second kernel, a stretch, the third kernel — and the contents of every buffer at each boundary
  are a fold from the launch memory (`W0` … `W8`). Every weakly fair execution terminates, nothing faulting, in a state
  whose every unscoped buffer holds the last boundary's contents `W8`; read at the result buffer and at the six argument
  buffers (which no segment writes) this is the post below. What `W8` holds at the result buffer, as a function of the
  arguments, is the next module's business.
-/
import proofs.«168190_j32186484916266_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    arguments as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ValueRun

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«168190_j32186484916266_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«168190_j32186484916266_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«168190_j32186484916266_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«168190_j32186484916266_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibLogSoftmax.lean ====
/-
  Dense layers with a positive part and the row-wise log-softmax, as whole-array functions on the extended reals.

  A matrix with `M` rows and `N` columns is a function of its two coordinates. A dense block is two linear
  layers, each followed by the positive part: `mlp z Wa ba Wb bb = relu (relu (z · Wa + ba) · Wb + bb)`. A classifier head
  is a linear layer followed by the logarithm of the softmax along each row, in the numerically shifted
  form: with `mx p` the largest entry of row `p` (folded from the word of −∞),
  `logSoftmax L (p, q) = (L (p, q) − mx p) − log (∑ k, exp (L (p, k) − mx p))`.

  Every entry of these functions depends on one row of the first operand only. So a block of rows of a taller array,
  pushed through the same layers, computes the entries of the whole array's layers at those rows: `mlp_rows`,
  `logSoftmax_rows`, `head_rows`.

  Also here: how a vector unit spells the row-wise shifted log-softmax (a lane maximum and a lane sum kept as columns
  and spread back over the lanes), read at an entry.
-/
import Idealize.ShloMosaic.Lib.ValueIdx
import Idealize.ShloMosaic.Lib.Pipeline.Value
import Idealize.ShloMosaic.PureOps.Ideal.Laws
import proofs.«168190_j32186484916266_1_alg».proof.Proof.LibRowLayers
import proofs.«168190_j32186484916266_1_alg».proof.Proof.LibBlockOps
import proofs.«168190_j32186484916266_1_alg».proof.Proof.LibColumn

noncomputable section

open scoped BigOperators

namespace Cert.Lib.LogSoftmax

open Idealize.ShloMosaic Idealize.ShloMosaic.ValueIdx Cert.Lib.BiasDot Cert.Lib.Dense Cert.Lib.RowLayers

variable {m M K N N' : Nat}

/-- Two linear layers, each followed by the positive part. -/
def mlp (z : (⟨2, ![M, K]⟩ : Shape).Idx → EReal) (Wa : (⟨2, ![K, N]⟩ : Shape).Idx → EReal)
    (ba : (⟨1, ![N]⟩ : Shape).Idx → EReal) (Wb : (⟨2, ![N, N']⟩ : Shape).Idx → EReal)
    (bb : (⟨1, ![N']⟩ : Shape).Idx → EReal) : (⟨2, ![M, N']⟩ : Shape).Idx → EReal :=
  relu (lin (relu (lin z Wa ba)) Wb bb)

/-- The dense block on a block of rows is the dense block of the whole array at those rows. -/
theorem mlp_rows (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (p : Fin m) (p' : Fin M) (q : Fin N')
    (h0 : ∀ k : Fin K, x0 (ix2 p k) = A (ix2 p' k)) :
    mlp x0 x1 (rowVec x2) x3 (rowVec x4) (ix2 p q) = mlp A x1 (rowVec x2) x3 (rowVec x4) (ix2 p' q) :=
  congrArg (fun z => max z 0)
    (head_block x0 x1 x2 x3 x4 A x1 x2 x3 x4 (ix2 p q) (ix2 p' q) h0 rfl rfl (fun _ => rfl) rfl)

/-- The dense block on a block of rows, at an index `j` of the block, is the dense block of the whole array at an index
    `i` in the same column whose row the block's row `j 0` is. -/
theorem mlp_at (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (j : (⟨2, ![m, N']⟩ : Shape).Idx) (i : (⟨2, ![M, N']⟩ : Shape).Idx)
    (h0 : ∀ k : Fin K, x0 (ix2 (j 0) k) = A (ix2 (i 0) k)) (hq : (j 1).val = (i 1).val) :
    mlp x0 x1 (rowVec x2) x3 (rowVec x4) j = mlp A x1 (rowVec x2) x3 (rowVec x4) i := by
  have e : j 1 = i 1 := Fin.ext hq
  exact congrArg (fun z => max z 0)
    (head_block x0 x1 x2 x3 x4 A x1 x2 x3 x4 j i h0 rfl rfl (fun k => by rw [e]) (by rw [e]))

/-- The largest entry of row `p`: the fold of `max` over the row, from the value of the word of −∞. -/
def rowMax (L : (⟨2, ![M, N]⟩ : Shape).Idx → EReal) (p : Fin M) : EReal :=
  (Finset.univ : Finset (Fin N)).fold max (Ideal.ofBits .f32 0xFF800000#32) (fun k => L (ix2 p k))

/-- The logarithm of the softmax along each row, shifted by the row's largest entry. -/
def logSoftmax (L : (⟨2, ![M, N]⟩ : Shape).Idx → EReal) : (⟨2, ![M, N]⟩ : Shape).Idx → EReal :=
  fun i => (L i - rowMax L (i 0)) - Ideal.log (∑ k : Fin N, Ideal.exp (L (ix2 (i 0) k) - rowMax L (i 0)))

theorem logSoftmax_apply (L : (⟨2, ![M, N]⟩ : Shape).Idx → EReal) (p : Fin M) (q : Fin N) :
    logSoftmax L (ix2 p q) = (L (ix2 p q) - rowMax L p) - Ideal.log (∑ k : Fin N, Ideal.exp (L (ix2 p k) - rowMax L p)) := rfl

/-- A row of the log-softmax depends on that row only. -/
theorem logSoftmax_rows (x : (⟨2, ![m, N]⟩ : Shape).Idx → EReal) (A : (⟨2, ![M, N]⟩ : Shape).Idx → EReal)
    (p : Fin m) (p' : Fin M) (q : Fin N) (h : ∀ k : Fin N, x (ix2 p k) = A (ix2 p' k)) :
    logSoftmax x (ix2 p q) = logSoftmax A (ix2 p' q) := by
  have hm : rowMax x p = rowMax A p' :=
    congrArg (fun f => (Finset.univ : Finset (Fin N)).fold max (Ideal.ofBits .f32 0xFF800000#32) f) (funext h)
  rw [logSoftmax_apply, logSoftmax_apply, hm, h q]
  exact congrArg (fun s => (A (ix2 p' q) - rowMax A p') - Ideal.log s) (Finset.sum_congr rfl fun k _ => by rw [h k])

/-- The last layer: a linear layer, then the log-softmax along each row. -/
def head (h : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  logSoftmax (lin h W b)

/-- The last layer on a block of rows is the last layer of the whole array at those rows. -/
theorem head_rows (x0 : (⟨2, ![m, K]⟩ : Shape).Idx → EReal) (x1 : (⟨2, ![K, N]⟩ : Shape).Idx → EReal)
    (b : (⟨1, ![N]⟩ : Shape).Idx → EReal) (A : (⟨2, ![M, K]⟩ : Shape).Idx → EReal) (p : Fin m) (p' : Fin M) (q : Fin N)
    (h0 : ∀ k : Fin K, x0 (ix2 p k) = A (ix2 p' k)) :
    head x0 x1 b (ix2 p q) = head A x1 b (ix2 p' q) := by
  refine logSoftmax_rows (lin x0 x1 b) (lin A x1 b) p p' q (fun k => ?_)
  rw [lin_apply, lin_apply]
  exact congrArg (fun z => z + b (ix1 k)) (Finset.sum_congr rfl fun k' _ => by rw [h0 k'])

/-- The last layer on a block of rows, at an index `j` of the block, is the last layer of the whole array at an index `i`
    in the same column whose row the block's row `j 0` is. -/
theorem head_at (x0 : (⟨2, ![m, K]⟩ : Shape).Idx → EReal) (x1 : (⟨2, ![K, N]⟩ : Shape).Idx → EReal)
    (b : (⟨1, ![N]⟩ : Shape).Idx → EReal) (A : (⟨2, ![M, K]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (hq : (j 1).val = (i 1).val) :
    head x0 x1 b j = head A x1 b i := by
  have e : j 1 = i 1 := Fin.ext hq
  refine (congrArg (head x0 x1 b) (eq_ix2 j)).trans ((head_rows x0 x1 b A (j 0) (i 0) (j 1) h0).trans ?_)
  refine congrArg (head A x1 b) ?_
  rw [e]
  exact (eq_ix2 i).symm

/-! ## The vector unit's spelling -/

/-- A `1 × N` row repeated down `M` rows reads, at `(p, q)`, the row at `q`. -/
theorem rowSpread_apply {α : Type} (R : (⟨2, ![1, N]⟩ : Shape).Idx → α)
    (hb : (⟨2, ![1, N]⟩ : Shape).Broadcasts ⟨2, ![M, N]⟩) (p : Fin M) (q : Fin N) :
    broadcastTo ⟨2, ![M, N]⟩ R hb (ix2 p q) = R (ix2 (0 : Fin 1) q) := by
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- A product into zero plus a loaded `1 × N` bias row repeated down the rows is the linear layer, whatever formats the
    two operands were narrowed to. -/
theorem lin_body {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨2, ![1, N]⟩ .f32)
    (hbr : (⟨2, ![1, N]⟩ : Shape).Broadcasts ⟨2, ![M, N]⟩) :
    addf (FloatOps.matmul d none l r (constant ⟨2, ![M, N]⟩ .f32 0x00000000#32)) (broadcastTo ⟨2, ![M, N]⟩ b hbr)
      = lin l r (rowVec b) := by
  subst hd
  funext i
  obtain ⟨p, q, rfl⟩ : ∃ (p : Fin M) (q : Fin N), i = ix2 p q := ⟨i 0, i 1, eq_ix2 i⟩
  rw [addf_apply, rowSpread_apply, Cert.Lib.PlainDot.matmul_zero_apply]
  rfl

/-- The maximum with a splat zero is the positive part. -/
theorem relu_body {s : Shape} (X : FVec Ideal s .f32) :
    maximumf X (broadcast s (Scalar.ofBits (F := Ideal) .f32 0x00000000#32)) = relu X := by
  funext i
  rw [maximumf_apply, broadcast_apply]
  show max _ (Ideal.ofBits .f32 0x00000000#32) = _
  rw [Ideal.ofBits_zero_f32]
  rfl

/-- The row-wise shifted log-softmax as a vector unit computes it: the lane maximum and the lane sum of exponentials are
    kept as `M × 1` columns and spread back over the `N` lanes. -/
theorem logSoftmax_body (L : FVec Ideal ⟨2, ![M, N]⟩ .f32) (hr : (⟨2, ![M, N]⟩ : Shape).Reduces [1] ⟨1, ![M]⟩)
    (hφ : FKind.Formats .f32) (hm : (0xFF800000#32 : BitVec FTy.f32.bits) = FKind.maximumf.neutral .f32 hφ)
    (ha : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    subf (subf L (broadcastTo ⟨2, ![M, N]⟩ (shapeCast ⟨2, ![M, 1]⟩ (multiReduction .maximumf [1] ⟨1, ![M]⟩ L 0xFF800000#32 hr hφ hm) hc) hb))
      (broadcastTo ⟨2, ![M, N]⟩ (log (shapeCast ⟨2, ![M, 1]⟩
        (multiReduction .add [1] ⟨1, ![M]⟩
          (exp (subf L (broadcastTo ⟨2, ![M, N]⟩ (shapeCast ⟨2, ![M, 1]⟩ (multiReduction .maximumf [1] ⟨1, ![M]⟩ L 0xFF800000#32 hr hφ hm) hc) hb)))
          0x00000000#32 hr hφ ha) hc)) hb)
      = logSoftmax L := by
  have hmax : ∀ (p : Fin M) (q : Fin N),
      broadcastTo ⟨2, ![M, N]⟩ (shapeCast ⟨2, ![M, 1]⟩ (multiReduction .maximumf [1] ⟨1, ![M]⟩ L 0xFF800000#32 hr hφ hm) hc) hb (ix2 p q)
        = rowMax L p := by
    intro p q
    rw [Cert.Lib.BlockOps.colSpread_apply, Cert.Lib.BlockOps.rowMax_apply]
    rfl
  funext i
  obtain ⟨p, q, rfl⟩ : ∃ (p : Fin M) (q : Fin N), i = ix2 p q := ⟨i 0, i 1, eq_ix2 i⟩
  rw [subf_apply, subf_apply, hmax, Cert.Lib.Column.colBroadcast_apply, logSoftmax_apply]
  refine congrArg (fun s => (L (ix2 p q) - rowMax L p) - s) ?_
  show FloatOps.log (shapeCast ⟨2, ![M, 1]⟩ _ hc (ix2 p (0 : Fin 1))) = _
  rw [Cert.Lib.Column.col_apply, Cert.Lib.BlockOps.rowSum_apply]
  refine congrArg Ideal.log (Finset.sum_congr rfl fun k _ => ?_)
  show FloatOps.exp (subf L _ (ix2 p k)) = _
  rw [subf_apply, hmax]
  rfl

end Cert.Lib.LogSoftmax

end
-- ==== Proof.LibRowStages.lean ====
/-
  The three dense stages of a two-layer graph convolution, as whole-array functions on the extended reals.

  A matrix with `M` rows and `N` columns is a function of its two coordinates. Between two rounds of neighbour
  aggregation the network applies, to every node's row:
    * the first transform, the plain product `x · W` (`mm`);
    * the hidden stage `hidden a r W = relu (a + r) · W`: a bias row added to every row, the positive part, then the
      second transform;
    * the output stage `scores a r = logSoftmax (a + r)`: a bias row added, then the logarithm of the softmax along
      each row in its shifted form.
  Every entry of each of the three depends on ONE row of the first operand only (and on the whole of the small
  operands), so a block of rows of a taller array, pushed through a stage, computes the entries of the whole array's
  stage at those rows: `mm_at`, `hidden_at`, `scores_at`.

  Also here: how a vector unit spells each stage on a block — operands narrowed to a shorter float format before a
  product (the identity on extended reals), the product accumulated into zero, the bias row repeated down the rows,
  the maximum with a splat zero — read as the whole-array function.
-/
import Idealize.ShloMosaic.Lib.ValueIdx
import Idealize.ShloMosaic.Lib.Pipeline.Value
import Idealize.ShloMosaic.PureOps.Ideal.Laws
import proofs.«168190_j32186484916266_1_alg».proof.Proof.LibLogSoftmax

noncomputable section

open scoped BigOperators

namespace Cert.Lib.RowStages

open Idealize.ShloMosaic Idealize.ShloMosaic.ValueIdx Cert.Lib.BiasDot Cert.Lib.Dense Cert.Lib.RowLayers Cert.Lib.LogSoftmax

variable {m M K N : Nat}

/-- The hidden stage: a bias row added to every row, the positive part, then the product with the weight. -/
def hidden (a : (⟨2, ![M, K]⟩ : Shape).Idx → EReal) (r : (⟨2, ![1, K]⟩ : Shape).Idx → EReal)
    (W : (⟨2, ![K, N]⟩ : Shape).Idx → EReal) : (⟨2, ![M, N]⟩ : Shape).Idx → EReal :=
  mm (relu (addRow a (rowVec r))) W

/-- The output stage: a bias row added to every row, then the row-wise shifted log-softmax. -/
def scores (a : (⟨2, ![M, N]⟩ : Shape).Idx → EReal) (r : (⟨2, ![1, N]⟩ : Shape).Idx → EReal) :
    (⟨2, ![M, N]⟩ : Shape).Idx → EReal :=
  logSoftmax (addRow a (rowVec r))

/-! ## Each stage reads one row -/

/-- The product on a block of rows, at an index `j` of the block, is the product of the whole array at an index `i` in
    the same column whose row the block's row `j 0` is. -/
theorem mm_at (x0 : (⟨2, ![m, K]⟩ : Shape).Idx → EReal) (A : (⟨2, ![M, K]⟩ : Shape).Idx → EReal)
    (W : (⟨2, ![K, N]⟩ : Shape).Idx → EReal) (j : (⟨2, ![m, N]⟩ : Shape).Idx) (i : (⟨2, ![M, N]⟩ : Shape).Idx)
    (h0 : ∀ k : Fin K, x0 (ix2 (j 0) k) = A (ix2 (i 0) k)) (hq : (j 1).val = (i 1).val) :
    mm x0 W j = mm A W i := by
  have e : j 1 = i 1 := Fin.ext hq
  show (∑ k : Fin K, x0 (ix2 (j 0) k) * W (ix2 k (j 1))) = ∑ k : Fin K, A (ix2 (i 0) k) * W (ix2 k (i 1))
  rw [e]
  exact Finset.sum_congr rfl fun k _ => by rw [h0 k]

/-- The same for the hidden stage. -/
theorem hidden_at (x0 : (⟨2, ![m, K]⟩ : Shape).Idx → EReal) (A : (⟨2, ![M, K]⟩ : Shape).Idx → EReal)
    (r : (⟨2, ![1, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (hq : (j 1).val = (i 1).val) :
    hidden x0 r W j = hidden A r W i :=
  mm_at (relu (addRow x0 (rowVec r))) (relu (addRow A (rowVec r))) W j i (fun k => by
    show max (x0 (ix2 (j 0) k) + rowVec r (ix1 k)) 0 = max (A (ix2 (i 0) k) + rowVec r (ix1 k)) 0
    rw [h0 k]) hq

/-- The same for the output stage. -/
theorem scores_at (x0 : (⟨2, ![m, N]⟩ : Shape).Idx → EReal) (A : (⟨2, ![M, N]⟩ : Shape).Idx → EReal)
    (r : (⟨2, ![1, N]⟩ : Shape).Idx → EReal) (j : (⟨2, ![m, N]⟩ : Shape).Idx) (i : (⟨2, ![M, N]⟩ : Shape).Idx)
    (h0 : ∀ k : Fin N, x0 (ix2 (j 0) k) = A (ix2 (i 0) k)) (hq : (j 1).val = (i 1).val) :
    scores x0 r j = scores A r i := by
  have e : j 1 = i 1 := Fin.ext hq
  refine (congrArg (scores x0 r) (eq_ix2 j)).trans
    ((logSoftmax_rows (addRow x0 (rowVec r)) (addRow A (rowVec r)) (j 0) (i 0) (j 1) (fun k => ?_)).trans ?_)
  · show x0 (ix2 (j 0) k) + rowVec r (ix1 k) = A (ix2 (i 0) k) + rowVec r (ix1 k)
    rw [h0 k]
  · refine congrArg (scores A r) ?_
    rw [e]
    exact (eq_ix2 i).symm

/-! ## The vector unit's spelling of each stage -/

/-- A block (cast to its own shape) plus a loaded `1 × N` row (cast to its own shape) repeated down the rows is the row
    added to every row of the block. -/
theorem addRow_body (x0 : FVec Ideal ⟨2, ![M, N]⟩ .f32) (x1 : FVec Ideal ⟨2, ![1, N]⟩ .f32)
    (hc0 : (⟨2, ![M, N]⟩ : Shape).ShapeCasts ⟨2, ![M, N]⟩) (hc1 : (⟨2, ![1, N]⟩ : Shape).ShapeCasts ⟨2, ![1, N]⟩)
    (hbr : (⟨2, ![1, N]⟩ : Shape).Broadcasts ⟨2, ![M, N]⟩) :
    addf (shapeCast ⟨2, ![M, N]⟩ x0 hc0) (broadcastTo ⟨2, ![M, N]⟩ (shapeCast ⟨2, ![1, N]⟩ x1 hc1) hbr)
      = addRow x0 (rowVec x1) := by
  funext i
  obtain ⟨p, q, rfl⟩ : ∃ (p : Fin M) (q : Fin N), i = ix2 p q := ⟨i 0, i 1, eq_ix2 i⟩
  rw [addf_apply, shapeCast_self, rowRepeat_apply]
  rfl

/-- A product of two operands narrowed to a shorter format, accumulated into zero, is the plain product. -/
theorem mm_body (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- The hidden stage as a vector unit computes it on a block. -/
theorem hidden_body (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![1, K]⟩ .f32) (x2 : FVec Ideal ⟨2, ![K, N]⟩ .f32)
    (hc0 : (⟨2, ![M, K]⟩ : Shape).ShapeCasts ⟨2, ![M, K]⟩) (hc1 : (⟨2, ![1, K]⟩ : Shape).ShapeCasts ⟨2, ![1, K]⟩)
    (hbr : (⟨2, ![1, K]⟩ : Shape).Broadcasts ⟨2, ![M, K]⟩) (hb0 hb1 : FTy.bf16.bits < FTy.f32.bits) :
    FloatOps.matmul d none
        (truncf .bf16 (maximumf (addf (shapeCast ⟨2, ![M, K]⟩ x0 hc0) (broadcastTo ⟨2, ![M, K]⟩ (shapeCast ⟨2, ![1, K]⟩ x1 hc1) hbr))
          (broadcast ⟨2, ![M, K]⟩ (Scalar.ofBits (F := Ideal) .f32 0x00000000#32))) hb0)
        (truncf .bf16 x2 hb1) (constant ⟨2, ![M, N]⟩ .f32 0x00000000#32)
      = hidden x0 x1 x2 := by
  rw [addRow_body, relu_body]
  exact mm_body d hd _ x2 hb0 hb1

/-- The output stage as a vector unit computes it on a block: the lane maximum and the lane sum of exponentials kept as
    columns and spread back over the lanes. -/
theorem scores_body (x0 : FVec Ideal ⟨2, ![M, N]⟩ .f32) (x1 : FVec Ideal ⟨2, ![1, N]⟩ .f32)
    (hc0 : (⟨2, ![M, N]⟩ : Shape).ShapeCasts ⟨2, ![M, N]⟩) (hc1 : (⟨2, ![1, N]⟩ : Shape).ShapeCasts ⟨2, ![1, N]⟩)
    (hbr : (⟨2, ![1, N]⟩ : Shape).Broadcasts ⟨2, ![M, N]⟩)
    (hr : (⟨2, ![M, N]⟩ : Shape).Reduces [1] ⟨1, ![M]⟩)
    (hφ : FKind.Formats .f32) (hm : (0xFF800000#32 : BitVec FTy.f32.bits) = FKind.maximumf.neutral .f32 hφ)
    (ha : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (L : FVec Ideal ⟨2, ![M, N]⟩ .f32)
    (hL : L = addf (shapeCast ⟨2, ![M, N]⟩ x0 hc0) (broadcastTo ⟨2, ![M, N]⟩ (shapeCast ⟨2, ![1, N]⟩ x1 hc1) hbr)) :
    subf (subf L (broadcastTo ⟨2, ![M, N]⟩ (shapeCast ⟨2, ![M, 1]⟩ (multiReduction .maximumf [1] ⟨1, ![M]⟩ L 0xFF800000#32 hr hφ hm) hc) hb))
      (broadcastTo ⟨2, ![M, N]⟩ (log (shapeCast ⟨2, ![M, 1]⟩
        (multiReduction .add [1] ⟨1, ![M]⟩
          (exp (subf L (broadcastTo ⟨2, ![M, N]⟩ (shapeCast ⟨2, ![M, 1]⟩ (multiReduction .maximumf [1] ⟨1, ![M]⟩ L 0xFF800000#32 hr hφ hm) hc) hb)))
          0x00000000#32 hr hφ ha) hc)) hb)
      = scores x0 x1 := by
  rw [logSoftmax_body L hr hφ hm ha hc hb, hL, addRow_body]
  rfl

end Cert.Lib.RowStages

end
-- ==== Proof.Body.lean ====
/-
  What each of the three kernel bodies stores, at the ideal values, as a stage of the network applied to the blocks it
  loaded: the first body the plain product of its block of node rows with the whole first weight; the second the hidden
  stage (bias row, positive part, product with the second weight) of its block; the third the output stage (bias row,
  row-wise log-softmax) of its block. Narrowing to a shorter float format is the identity on extended reals, a product
  accumulated into zero is the product, and a cast of a block to its own shape is the block.
-/
import proofs.«168190_j32186484916266_1_alg».proof.Proof.Gen.KernelIdeal.Skeleton
import proofs.«168190_j32186484916266_1_alg».proof.Proof.LibRowStages

noncomputable section

namespace Cert.KernelIdeal.Bodies

open Cert.KernelIdeal Cert.KernelIdeal.Gen Idealize.ShloMosaic

/-- The first body stores its block of rows times the weight. -/
theorem pay0 (x0 : Vec Ideal S2000x500 .f32) (x1 : Vec Ideal S500x128 .f32) :
    k0_pay1 (F := Ideal) x0 x1 = Cert.Lib.Dense.mm x0 x1 := by
  unfold k0_pay1
  exact Cert.Lib.RowStages.mm_body _ rfl x0 x1 _ _

/-- The second body stores the hidden stage of its block of rows. -/
theorem pay1 (x0 : Vec Ideal S2000x128 .f32) (x1 : Vec Ideal S1x128 .f32) (x2 : Vec Ideal S128x64 .f32) :
    k1_pay1 (F := Ideal) x0 x1 x2 = Cert.Lib.RowStages.hidden x0 x1 x2 := by
  unfold k1_pay1
  exact Cert.Lib.RowStages.hidden_body _ rfl x0 x1 x2 _ _ _ _ _

/-- The third body stores the output stage of its block of rows. -/
theorem pay2 (x0 : Vec Ideal S2000x64 .f32) (x1 : Vec Ideal S1x64 .f32) :
    k2_pay1 (F := Ideal) x0 x1 = Cert.Lib.RowStages.scores x0 x1 := by
  unfold k2_pay1
  exact Cert.Lib.RowStages.scores_body x0 x1 _ _ _ _ _ _ _ _ _ _ rfl

end Cert.KernelIdeal.Bodies

end
-- ==== Proof.Region0.lean ====
/-
  Region 0, from blocks to the array. The first kernel's grid has 50 points; point `t` loads rows 2000·t … 2000·t + 1999 of
  the node features and the whole first weight, and writes back the same rows of the result. Each written row is the
  product of that node's row with the weight, which is what the whole-array product holds at that row; the 50 blocks
  tile the 100000 rows. So whatever the buffers hold when the region is entered (`V`), the result array ends holding the
  product of the feature array and the weight array as entered.
-/
import proofs.«168190_j32186484916266_1_alg».proof.Proof.Gen.KernelIdeal.Frame
import proofs.«168190_j32186484916266_1_alg».proof.Proof.Body
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature window and the result window are on row block `t`, column
    block 0; the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight window's block at any point is the whole weight array. -/
theorem weight_block (c : Dev nD) (t : Fin cfg0.N) :
    (iblk0 V c 1 t : S500x128.Idx → EReal) = V c main_arg1 := by
  obtain ⟨e0, e1, e2, e3, e4, e5⟩ := idx_facts t
  funext y
  show V c main_arg1 (((cfg0.win 1).blk t).view.emb y) = V c main_arg1 y
  refine congrArg (V c main_arg1) (funext fun a => Fin.ext ?_)
  match a with
  | ⟨0, _⟩ => show win0_1.index t (0 : Fin 2) * 500 + 1 * (y 0).val = (y 0).val; omega
  | ⟨1, _⟩ => show win0_1.index t (1 : Fin 2) * 128 + 1 * (y 1).val = (y 1).val; omega

/-- WHAT POINT `t` WRITES BACK is block `t` of the product of the two arrays as the region finds them. -/
theorem flushed_eq (c : Dev nD) (t : Fin cfg0.N) :
    (dat0 V c).flushed 2 t
      = ((cfg0.win 2).blk t).view.read (Elt Ideal) (Cert.Lib.Dense.mm (V c main_arg0) (V c main_arg1)) := by
  show (cfg0.win 2).cut (grid0.coords t) ((dat0 V c).after 2 t) = _
  rw [after0_2]
  unfold out0_2
  rw [View.canon_unit_zero hz]
  simp only [View.ld_unit_zero (S := S2000x500) hz, View.ld_unit_zero (S := S500x128) hz]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  refine (congrFun (Bodies.pay0 (iblk0 V c 0 t) (iblk0 V c 1 t)) (ix2 p q)).trans ?_
  rw [weight_block V c t]
  refine Cert.Lib.RowStages.mm_at (iblk0 V c 0 t) (V c main_arg0) (V c main_arg1) (ix2 p q)
    (((cfg0.win 2).blk t).view.emb (ix2 p q)) (fun k => ?_) ?_
  · show V c main_arg0 (((cfg0.win 0).blk t).view.emb (ix2 p k)) = V c main_arg0 (ix2 ((((cfg0.win 2).blk t).view.emb (ix2 p q)) 0) k)
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 500 + 1 * k.val = k.val; omega
  · show q.val = win0_2.index t (1 : Fin 2) * 128 + 1 * q.val
    omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every row of the array is in the block of the point its row number divided by 2000 names. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY after the region: the product of the feature array and the weight array as the region found them. -/
theorem final (c : Dev nD) :
    (dat0 V c).arrAt 2 cfg0.N = Cert.Lib.Dense.mm (V c main_arg0) (V c main_arg1) :=
  (dat0 V c).arrAt_eq_of_cover 2 (Cert.Lib.Dense.mm (V c main_arg0) (V c main_arg1)) (fun t _ => flushed_eq V c t) cover

end Cert.KernelIdeal.Region0

end
-- ==== Proof.Region1.lean ====
/-
  Region 1, from blocks to the array. The second kernel's grid has 50 points; point `t` loads rows 2000·t … 2000·t + 1999
  of the first aggregation, the whole 1 × 128 bias row and the whole second weight, and writes back the same rows of
  the result: the hidden stage (bias, positive part, product) of those rows, which is what the hidden stage of the whole
  array holds there. The 50 blocks tile the 100000 rows, so the result array ends holding the hidden stage of the three
  arrays as the region finds them (`V`).
-/
import proofs.«168190_j32186484916266_1_alg».proof.Proof.Gen.KernelIdeal.Frame
import proofs.«168190_j32186484916266_1_alg».proof.Proof.Body
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregation window and the result window are on row block `t`,
    column block 0; the bias row and the weight stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block at any point is the whole bias row. -/
theorem bias_block (c : Dev nD) (t : Fin cfg1.N) :
    (iblk1 V c 1 t : S1x128.Idx → EReal) = V c main_v46 := by
  obtain ⟨e0, e1, e2, e3, e4, e5, e6, e7⟩ := idx_facts t
  funext y
  show V c main_v46 (((cfg1.win 1).blk t).view.emb y) = V c main_v46 y
  refine congrArg (V c main_v46) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The weight window's block at any point is the whole weight array. -/
theorem weight_block (c : Dev nD) (t : Fin cfg1.N) :
    (iblk1 V c 2 t : S128x64.Idx → EReal) = V c main_arg3 := by
  obtain ⟨e0, e1, e2, e3, e4, e5, e6, e7⟩ := idx_facts t
  funext y
  show V c main_arg3 (((cfg1.win 2).blk t).view.emb y) = V c main_arg3 y
  refine congrArg (V c main_arg3) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- WHAT POINT `t` WRITES BACK is block `t` of the hidden stage of the three arrays as the region finds them. -/
theorem flushed_eq (c : Dev nD) (t : Fin cfg1.N) :
    (dat1 V c).flushed 3 t
      = ((cfg1.win 3).blk t).view.read (Elt Ideal) (Cert.Lib.RowStages.hidden (V c main_v45) (V c main_v46) (V c main_arg3)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x64) hz]
  obtain ⟨e0, e1, e2, e3, e4, e5, e6, e7⟩ := idx_facts t
  refine funext fun (j : S2000x64.Idx) => ?_
  obtain ⟨p, q, rfl⟩ : ∃ (p : Fin 2000) (q : Fin 64), j = ix2 p q := ⟨j 0, j 1, eq_ix2 j⟩
  refine (congrFun (Bodies.pay1 (iblk1 V c 0 t) (iblk1 V c 1 t) (iblk1 V c 2 t)) (ix2 p q)).trans ?_
  rw [bias_block V c t, weight_block V c t]
  refine Cert.Lib.RowStages.hidden_at (iblk1 V c 0 t) (V c main_v45) (V c main_v46) (V c main_arg3) (ix2 p q)
    (((cfg1.win 3).blk t).view.emb (ix2 p q)) (fun k => ?_) ?_
  · show V c main_v45 (((cfg1.win 0).blk t).view.emb (ix2 p k)) = V c main_v45 (ix2 ((((cfg1.win 3).blk t).view.emb (ix2 p q)) 0) k)
    refine congrArg (V c main_v45) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  · show q.val = win1_3.index t (1 : Fin 2) * 64 + 1 * q.val
    omega

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v47).slice (win1_3.rect t)).set ↔ _
  rw [View.set_slice_whole, Rect.mem_set_unit]
  exact Iff.rfl

/-- Every row of the array is in the block of the point its row number divided by 2000 names. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨e0, e1, e2, e3, e4, e5, e6, e7⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- THE ARRAY after the region: the hidden stage of the aggregation, the bias row and the weight as the region found them. -/
theorem final (c : Dev nD) :
    (dat1 V c).arrAt 3 cfg1.N = Cert.Lib.RowStages.hidden (V c main_v45) (V c main_v46) (V c main_arg3) :=
  (dat1 V c).arrAt_eq_of_cover 3 (Cert.Lib.RowStages.hidden (V c main_v45) (V c main_v46) (V c main_arg3)) (fun t _ => flushed_eq V c t) cover

end Cert.KernelIdeal.Region1

end
-- ==== Proof.Region2.lean ====
/-
  Region 2, from blocks to the array. The third kernel's grid has 50 points; point `t` loads rows 2000·t … 2000·t + 1999 of
  the second aggregation and the whole 1 × 64 bias row, and writes back the same rows of the result: the output stage
  (bias, row-wise log-softmax) of those rows. A row of the log-softmax reads that row only, so this is what the output
  stage of the whole array holds there. The 50 blocks tile the 100000 rows, so the result array ends holding the output
  stage of the two arrays as the region finds them (`V`).
-/
import proofs.«168190_j32186484916266_1_alg».proof.Proof.Gen.KernelIdeal.Frame
import proofs.«168190_j32186484916266_1_alg».proof.Proof.Body
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregation window and the result window are on row block `t`,
    column block 0; the bias row stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The bias window's block at any point is the whole bias row. -/
theorem bias_block (c : Dev nD) (t : Fin cfg2.N) :
    (iblk2 V c 1 t : S1x64.Idx → EReal) = V c main_v61 := by
  obtain ⟨e0, e1, e2, e3, e4, e5⟩ := idx_facts t
  funext y
  show V c main_v61 (((cfg2.win 1).blk t).view.emb y) = V c main_v61 y
  refine congrArg (V c main_v61) (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- WHAT POINT `t` WRITES BACK is block `t` of the output stage of the two arrays as the region finds them. -/
theorem flushed_eq (c : Dev nD) (t : Fin cfg2.N) :
    (dat2 V c).flushed 2 t
      = ((cfg2.win 2).blk t).view.read (Elt Ideal) (Cert.Lib.RowStages.scores (V c main_v60) (V c main_v61)) := by
  show (cfg2.win 2).cut (grid2.coords t) ((dat2 V c).after 2 t) = _
  rw [after2_2]
  unfold out2_2
  rw [View.canon_unit_zero hz]
  simp only [View.ld_unit_zero (S := S2000x64) hz, View.ld_unit_zero (S := S1x64) hz]
  obtain ⟨e0, e1, e2, e3, e4, e5⟩ := idx_facts t
  refine funext fun (j : S2000x64.Idx) => ?_
  obtain ⟨p, q, rfl⟩ : ∃ (p : Fin 2000) (q : Fin 64), j = ix2 p q := ⟨j 0, j 1, eq_ix2 j⟩
  refine (congrFun (Bodies.pay2 (iblk2 V c 0 t) (iblk2 V c 1 t)) (ix2 p q)).trans ?_
  rw [bias_block V c t]
  refine Cert.Lib.RowStages.scores_at (iblk2 V c 0 t) (V c main_v60) (V c main_v61) (ix2 p q)
    (((cfg2.win 2).blk t).view.emb (ix2 p q)) (fun k => ?_) ?_
  · show V c main_v60 (((cfg2.win 0).blk t).view.emb (ix2 p k)) = V c main_v60 (ix2 ((((cfg2.win 2).blk t).view.emb (ix2 p q)) 0) k)
    refine congrArg (V c main_v60) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  · show q.val = win2_2.index t (1 : Fin 2) * 64 + 1 * q.val
    omega

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v62).slice (win2_2.rect t)).set ↔ _
  rw [View.set_slice_whole, Rect.mem_set_unit]
  exact Iff.rfl

/-- Every row of the array is in the block of the point its row number divided by 2000 names. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨e0, e1, e2, e3, e4, e5⟩ := idx_facts t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- THE ARRAY after the region: the output stage of the aggregation and the bias row as the region found them. -/
theorem final (c : Dev nD) :
    (dat2 V c).arrAt 2 cfg2.N = Cert.Lib.RowStages.scores (V c main_v60) (V c main_v61) :=
  (dat2 V c).arrAt_eq_of_cover 2 (Cert.Lib.RowStages.scores (V c main_v60) (V c main_v61)) (fun t _ => flushed_eq V c t) cover

end Cert.KernelIdeal.Region2

end
-- ==== Proof.KernelGlue.lean ====
/-
  The host operations around the kernel's dense stages, as named functions of arrays.

  The graph is given as a 2 × 1600000 table of node numbers, a row of sources and a row of destinations. Both programs
  append one self-loop per node (`srcIdx`, `dstIdx`: row 0 or 1 of the table followed by 0 … 99999), count each node's
  in-degree by scattering ones, take its reciprocal square root where positive (`invSqrtDeg`), and weight edge `e` by
  the product of that quantity at its two ends (`edgeNorm`), an index below zero first wrapped by the node count
  (`wrap`). One round of aggregation gathers a feature row per edge by source, scales it by the edge's weight, and
  scatter-adds it into a table of zeros by destination (`aggregate128`, `aggregate64`). These functions are never
  opened: the certificate only needs that both programs apply the same ones.
-/
import proofs.«168190_j32186484916266_1_alg».proof.Proof.Gen.KernelIdeal

noncomputable section

namespace Cert.KernelIdeal.Glue

open Cert.KernelIdeal Cert.KernelIdeal.Gen Idealize.ShloMosaic

variable {F : FTy → Type} [FloatOps F]

/-- Each edge's source node, the self-loops appended. -/
def srcIdx (x5 : (⟨S2x1600000, .i32⟩ : BufTy).Contents (Elt F)) : (⟨S1700000, .i32⟩ : BufTy).Contents (Elt F) :=
  concatenate S1700000 0 [⟨S1600000, (shapeCast _ (extractStridedSlice S1x1600000 ![0, 0] x5 slices_S2x1600000_S1x1600000_0_0) shapeCasts_S1x1600000_S1600000)⟩, ⟨S100000, (iotaInDim S100000 32 0)⟩] concatenates_S1600000_S100000_S1700000_d0

/-- Each edge's destination node, the self-loops appended. -/
def dstIdx (x5 : (⟨S2x1600000, .i32⟩ : BufTy).Contents (Elt F)) : (⟨S1700000, .i32⟩ : BufTy).Contents (Elt F) :=
  concatenate S1700000 0 [⟨S1600000, (shapeCast _ (extractStridedSlice S1x1600000 ![1, 0] x5 slices_S2x1600000_S1x1600000_1_0) shapeCasts_S1x1600000_S1600000)⟩, ⟨S100000, (iotaInDim S100000 32 0)⟩] concatenates_S1600000_S100000_S1700000_d0

/-- A node's in-degree: ones scatter-added by destination into zeros. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Where the degree is positive. -/
def degPositive (dst : (⟨S1700000, .i32⟩ : BufTy).Contents (Elt F)) : (⟨S100000, .i1⟩ : BufTy).Contents (Elt F) :=
  cmpf (F := F) .ogt (degree dst) (broadcastInDim S100000 ![] bcast_S_S100000 (constant S_ .f32 0x00000000#32))

/-- The reciprocal square root of the larger of the degree and one. -/
def rsqrtDeg (dst : (⟨S1700000, .i32⟩ : BufTy).Contents (Elt F)) : (⟨S100000, .f32⟩ : BufTy).Contents (Elt F) :=
  Host.rsqrt (maximumf (degree dst) (broadcastInDim S100000 ![] bcast_S_S100000 (constant S_ .f32 0x3F800000#32)))

/-- The outlined selection: the second array where the flags are set, a scalar spread over the nodes elsewhere. -/
def whereOr (flags : (⟨S100000, .i1⟩ : BufTy).Contents (Elt F)) (v : (⟨S100000, .f32⟩ : BufTy).Contents (Elt F))
    (z : (⟨S_, .f32⟩ : BufTy).Contents (Elt F)) : (⟨S100000, .f32⟩ : BufTy).Contents (Elt F) :=
  select flags v (broadcastInDim S100000 ![] bcast_S_S100000 (id z))

/-- The reciprocal square root of the larger of the degree and one where the degree is positive, zero elsewhere. -/
def invSqrtDeg (dst : (⟨S1700000, .i32⟩ : BufTy).Contents (Elt F)) : (⟨S100000, .f32⟩ : BufTy).Contents (Elt F) :=
  whereOr (degPositive dst) (rsqrtDeg dst) (constant S_ .f32 0x00000000#32)

/-- A node number below zero has the node count added. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- An edge's weight from a per-node factor: the product of the factor at its source and at its destination. -/
def edgeNormOf (inv : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 inv (broadcastInDim S1700000x1 ![0] bcast_S1700000_S1700000x1_0 (wrap src))) (Host.gather gather_S100000_S1700000x1_S1700000_n_0_n_n_0_1_1 inv (broadcastInDim S1700000x1 ![0] bcast_S1700000_S1700000x1_0 (wrap dst)))

/-- An edge's weight: the product of `invSqrtDeg` at its source and at its destination. -/
def edgeNorm (src dst : (⟨S1700000, .i32⟩ : BufTy).Contents (Elt F)) : (⟨S1700000, .f32⟩ : BufTy).Contents (Elt F) :=
  edgeNormOf (invSqrtDeg dst) src dst

/-- One round of aggregation over 128 features: rows gathered by source, scaled by the edge's weight, scatter-added by
    destination into zeros. -/
def aggregate128 (h : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 nrm)))

/-- One round of aggregation over 64 features. -/
def aggregate64 (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 nrm)))

end Cert.KernelIdeal.Glue

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.KernelValue.lean ====
/-
  What the kernel's result buffer holds after the run, as one function of the arguments.

  The buffer contents at the boundaries of @main's segments are a fold from the launch memory: a stretch of host
  operations replaces each operation's result buffer by its function of the operands' contents and leaves every other
  buffer alone; a kernel region replaces its result array by what its write-backs leave — the whole-array stage of its
  operand arrays as the region found them (the three region modules) — and leaves every other buffer alone. Reading the
  fold back from the result buffer: the output stage of the second aggregation and the reshaped second bias; the second
  aggregation is of the hidden stage of the first aggregation, the reshaped first bias and the second weight; the first
  aggregation is of the product of the features and the first weight; the edge lists and the edge weights, computed
  before the first kernel, are carried unchanged through every later segment, and so are the arguments.
-/
import proofs.«168190_j32186484916266_1_alg».proof.Proof.KernelRun
import proofs.«168190_j32186484916266_1_alg».proof.Proof.Region0
import proofs.«168190_j32186484916266_1_alg».proof.Proof.Region1
import proofs.«168190_j32186484916266_1_alg».proof.Proof.Region2
import proofs.«168190_j32186484916266_1_alg».proof.Proof.KernelGlue
import proofs.«168190_j32186484916266_1_alg».proof.Proof.LibAfter

set_option maxRecDepth 65536

noncomputable section

namespace Cert.KernelIdeal.Walk

open Cert.KernelIdeal Cert.KernelIdeal.Gen Cert.KernelIdeal.Glue
open Idealize.ShloMosaic Idealize.ShloMosaic.TcCoe Idealize.SL.Sem Idealize.ShloMosaic.StableHlo

/-- The kernel program's result as a function of its six arguments: product, aggregation, hidden stage, aggregation,
    output stage, the two bias vectors reshaped to rows. -/
def out (x0 : (⟨S100000x500, .f32⟩ : BufTy).Contents (Elt Ideal)) (x1 : (⟨S500x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S2x1600000, .i32⟩ : BufTy).Contents (Elt Ideal)) :
    (⟨S100000x64, .f32⟩ : BufTy).Contents (Elt Ideal) :=
  Cert.Lib.RowStages.scores
    (aggregate64
      (Cert.Lib.RowStages.hidden
        (aggregate128 (Cert.Lib.Dense.mm x0 x1) (srcIdx x5) (dstIdx x5) (edgeNorm (srcIdx x5) (dstIdx x5)))
        (shapeCast _ x2 shapeCasts_S128_S1x128) x3)
      (srcIdx x5) (dstIdx x5) (edgeNorm (srcIdx x5) (dstIdx x5)))
    (shapeCast _ x4 shapeCasts_S64_S1x64)

variable (m : (ℓ : Loc nD τ sig) → Buf (Elt Ideal) ℓ) (ρ : Dev nD → PrngReg) (c : Dev nD)

/-! ## The first kernel's entry contents: the arguments, the edge lists, the edge weights -/

theorem W3_arg0 : W3 m ρ c (Proc.devRef .tc main_arg0) = m ((c : Thread nD τ).loc main_arg0) := by
  show after hostOps0_2 (after hostOps0_1 (after hostOps0 (W0 m ρ c))) (Proc.devRef .tc main_arg0) = _
  read_fold <;> rfl
theorem W3_arg1 : W3 m ρ c (Proc.devRef .tc main_arg1) = m ((c : Thread nD τ).loc main_arg1) := by
  show after hostOps0_2 (after hostOps0_1 (after hostOps0 (W0 m ρ c))) (Proc.devRef .tc main_arg1) = _
  read_fold <;> rfl
theorem W3_arg2 : W3 m ρ c (Proc.devRef .tc main_arg2) = m ((c : Thread nD τ).loc main_arg2) := by
  show after hostOps0_2 (after hostOps0_1 (after hostOps0 (W0 m ρ c))) (Proc.devRef .tc main_arg2) = _
  read_fold <;> rfl
theorem W3_arg3 : W3 m ρ c (Proc.devRef .tc main_arg3) = m ((c : Thread nD τ).loc main_arg3) := by
  show after hostOps0_2 (after hostOps0_1 (after hostOps0 (W0 m ρ c))) (Proc.devRef .tc main_arg3) = _
  read_fold <;> rfl
theorem W3_arg4 : W3 m ρ c (Proc.devRef .tc main_arg4) = m ((c : Thread nD τ).loc main_arg4) := by
  show after hostOps0_2 (after hostOps0_1 (after hostOps0 (W0 m ρ c))) (Proc.devRef .tc main_arg4) = _
  read_fold <;> rfl

theorem W3_src : W3 m ρ c (Proc.devRef .tc main_v3) = srcIdx (m ((c : Thread nD τ).loc main_arg5)) := by
  show after hostOps0_2 (after hostOps0_1 (after hostOps0 (W0 m ρ c))) (Proc.devRef .tc main_v3) = _
  read_fold <;> rfl

theorem W3_dst : W3 m ρ c (Proc.devRef .tc main_v6) = dstIdx (m ((c : Thread nD τ).loc main_arg5)) := by
  show after hostOps0_2 (after hostOps0_1 (after hostOps0 (W0 m ρ c))) (Proc.devRef .tc main_v6) = _
  read_fold <;> rfl

/-- After the first stretch: the edge lists and, for each node, whether its degree is positive and the reciprocal
    square root of the larger of its degree and one. -/
theorem W1_src : W1 m ρ c (Proc.devRef .tc main_v3) = srcIdx (m ((c : Thread nD τ).loc main_arg5)) := by
  show after hostOps0 (W0 m ρ c) (Proc.devRef .tc main_v3) = _
  read_fold <;> rfl

theorem W1_dst : W1 m ρ c (Proc.devRef .tc main_v6) = dstIdx (m ((c : Thread nD τ).loc main_arg5)) := by
  show after hostOps0 (W0 m ρ c) (Proc.devRef .tc main_v6) = _
  read_fold <;> rfl

theorem W1_pos : W1 m ρ c (Proc.devRef .tc main_v12) = degPositive (dstIdx (m ((c : Thread nD τ).loc main_arg5))) := by
  show after hostOps0 (W0 m ρ c) (Proc.devRef .tc main_v12) = _
  read_fold <;> rfl

theorem W1_rs : W1 m ρ c (Proc.devRef .tc main_v15) = rsqrtDeg (dstIdx (m ((c : Thread nD τ).loc main_arg5))) := by
  show after hostOps0 (W0 m ρ c) (Proc.devRef .tc main_v15) = _
  read_fold <;> rfl

theorem W1_zero : W1 m ρ c (Proc.devRef .tc main_cst_3) = constant (F := Ideal) S_ .f32 0x00000000#32 := by
  show after hostOps0 (W0 m ρ c) (Proc.devRef .tc main_cst_3) = _
  read_fold <;> rfl

/-- The outlined selection read back over any previous contents; it carries the edge lists. -/
theorem call_inv (V : Valuation τ sig (Elt Ideal)) : after hostOps0_1 V (Proc.devRef .tc main_v16)
    = whereOr (V (Proc.devRef .tc main_v12)) (V (Proc.devRef .tc main_v15)) (V (Proc.devRef .tc main_cst_3)) := by
  read_fold <;> rfl
theorem call_src (V : Valuation τ sig (Elt Ideal)) : after hostOps0_1 V (Proc.devRef .tc main_v3) = V (Proc.devRef .tc main_v3) := by
  read_fold <;> rfl
theorem call_dst (V : Valuation τ sig (Elt Ideal)) : after hostOps0_1 V (Proc.devRef .tc main_v6) = V (Proc.devRef .tc main_v6) := by
  read_fold <;> rfl

/-- The third stretch read back over any previous contents: the edge weights from the per-node factor and the edge lists. -/
theorem third_nrm (V : Valuation τ sig (Elt Ideal)) : after hostOps0_2 V (Proc.devRef .tc main_v31)
    = edgeNormOf (V (Proc.devRef .tc main_v16)) (V (Proc.devRef .tc main_v3)) (V (Proc.devRef .tc main_v6)) := by
  read_fold <;> rfl

/-- After the outlined selection: the per-node factor; the edge lists are carried. -/
theorem W2_inv : W2 m ρ c (Proc.devRef .tc main_v16) = invSqrtDeg (dstIdx (m ((c : Thread nD τ).loc main_arg5))) :=
  (call_inv (W1 m ρ c)).trans (by rw [W1_pos, W1_rs, W1_zero]; rfl)

theorem W2_src : W2 m ρ c (Proc.devRef .tc main_v3) = srcIdx (m ((c : Thread nD τ).loc main_arg5)) :=
  (call_src (W1 m ρ c)).trans (W1_src m ρ c)

theorem W2_dst : W2 m ρ c (Proc.devRef .tc main_v6) = dstIdx (m ((c : Thread nD τ).loc main_arg5)) :=
  (call_dst (W1 m ρ c)).trans (W1_dst m ρ c)

/-- After the third stretch: the edge weights. -/
theorem W3_nrm : W3 m ρ c (Proc.devRef .tc main_v31) = edgeNorm (srcIdx (m ((c : Thread nD τ).loc main_arg5))) (dstIdx (m ((c : Thread nD τ).loc main_arg5))) :=
  (third_nrm (W2 m ρ c)).trans (by rw [W2_inv, W2_src, W2_dst]; rfl)

/-! ## After the first kernel -/

theorem W4_v32 : W4 m ρ c (Proc.devRef .tc main_v32) = Cert.Lib.Dense.mm (m ((c : Thread nD τ).loc main_arg0)) (m ((c : Thread nD τ).loc main_arg1)) :=
  (W4_arr m ρ c 2).trans ((Region0.final (V3 m ρ) c).trans
    (congrArg₂ Cert.Lib.Dense.mm (W3_arg0 m ρ c) (W3_arg1 m ρ c)))

theorem W4_src : W4 m ρ c (Proc.devRef .tc main_v3) = W3 m ρ c (Proc.devRef .tc main_v3) := W4_of_ne m ρ c main_v3 (by decide)
theorem W4_dst : W4 m ρ c (Proc.devRef .tc main_v6) = W3 m ρ c (Proc.devRef .tc main_v6) := W4_of_ne m ρ c main_v6 (by decide)
theorem W4_nrm : W4 m ρ c (Proc.devRef .tc main_v31) = W3 m ρ c (Proc.devRef .tc main_v31) := W4_of_ne m ρ c main_v31 (by decide)
theorem W4_arg2 : W4 m ρ c (Proc.devRef .tc main_arg2) = W3 m ρ c (Proc.devRef .tc main_arg2) := W4_of_ne m ρ c main_arg2 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)

/-! ## The second kernel's entry contents -/

theorem W5_v45 : W5 m ρ c (Proc.devRef .tc main_v45)
    = aggregate128 (W4 m ρ c (Proc.devRef .tc main_v32)) (W4 m ρ c (Proc.devRef .tc main_v3)) (W4 m ρ c (Proc.devRef .tc main_v6)) (W4 m ρ c (Proc.devRef .tc main_v31)) := by
  show after hostOps1 (W4 m ρ c) (Proc.devRef .tc main_v45) = _
  read_fold <;> rfl

theorem W5_v46 : W5 m ρ c (Proc.devRef .tc main_v46) = shapeCast _ (W4 m ρ c (Proc.devRef .tc main_arg2)) shapeCasts_S128_S1x128 := by
  show after hostOps1 (W4 m ρ c) (Proc.devRef .tc main_v46) = _
  read_fold <;> rfl

theorem W5_src : W5 m ρ c (Proc.devRef .tc main_v3) = W4 m ρ c (Proc.devRef .tc main_v3) := by
  show after hostOps1 (W4 m ρ c) (Proc.devRef .tc main_v3) = _
  read_fold <;> rfl
theorem W5_dst : W5 m ρ c (Proc.devRef .tc main_v6) = W4 m ρ c (Proc.devRef .tc main_v6) := by
  show after hostOps1 (W4 m ρ c) (Proc.devRef .tc main_v6) = _
  read_fold <;> rfl
theorem W5_nrm : W5 m ρ c (Proc.devRef .tc main_v31) = W4 m ρ c (Proc.devRef .tc main_v31) := by
  show after hostOps1 (W4 m ρ c) (Proc.devRef .tc main_v31) = _
  read_fold <;> rfl
theorem W5_arg3 : W5 m ρ c (Proc.devRef .tc main_arg3) = W4 m ρ c (Proc.devRef .tc main_arg3) := by
  show after hostOps1 (W4 m ρ c) (Proc.devRef .tc main_arg3) = _
  read_fold <;> rfl
theorem W5_arg4 : W5 m ρ c (Proc.devRef .tc main_arg4) = W4 m ρ c (Proc.devRef .tc main_arg4) := by
  show after hostOps1 (W4 m ρ c) (Proc.devRef .tc main_arg4) = _
  read_fold <;> rfl

/-! ## After the second kernel -/

theorem W6_v47 : W6 m ρ c (Proc.devRef .tc main_v47)
    = Cert.Lib.RowStages.hidden (W5 m ρ c (Proc.devRef .tc main_v45)) (W5 m ρ c (Proc.devRef .tc main_v46)) (W5 m ρ c (Proc.devRef .tc main_arg3)) :=
  (W6_arr m ρ c 3).trans (Region1.final (V5 m ρ) c)

theorem W6_src : W6 m ρ c (Proc.devRef .tc main_v3) = W5 m ρ c (Proc.devRef .tc main_v3) := W6_of_ne m ρ c main_v3 (by decide)
theorem W6_dst : W6 m ρ c (Proc.devRef .tc main_v6) = W5 m ρ c (Proc.devRef .tc main_v6) := W6_of_ne m ρ c main_v6 (by decide)
theorem W6_nrm : W6 m ρ c (Proc.devRef .tc main_v31) = W5 m ρ c (Proc.devRef .tc main_v31) := W6_of_ne m ρ c main_v31 (by decide)
theorem W6_arg4 : W6 m ρ c (Proc.devRef .tc main_arg4) = W5 m ρ c (Proc.devRef .tc main_arg4) := W6_of_ne m ρ c main_arg4 (by decide)

/-! ## The third kernel's entry contents -/

theorem W7_v60 : W7 m ρ c (Proc.devRef .tc main_v60)
    = aggregate64 (W6 m ρ c (Proc.devRef .tc main_v47)) (W6 m ρ c (Proc.devRef .tc main_v3)) (W6 m ρ c (Proc.devRef .tc main_v6)) (W6 m ρ c (Proc.devRef .tc main_v31)) := by
  show after hostOps2 (W6 m ρ c) (Proc.devRef .tc main_v60) = _
  read_fold <;> rfl

theorem W7_v61 : W7 m ρ c (Proc.devRef .tc main_v61) = shapeCast _ (W6 m ρ c (Proc.devRef .tc main_arg4)) shapeCasts_S64_S1x64 := by
  show after hostOps2 (W6 m ρ c) (Proc.devRef .tc main_v61) = _
  read_fold <;> rfl

/-! ## After the third kernel: the result -/

theorem W8_v62 : W8 m ρ c (Proc.devRef .tc main_v62)
    = Cert.Lib.RowStages.scores (W7 m ρ c (Proc.devRef .tc main_v60)) (W7 m ρ c (Proc.devRef .tc main_v61)) :=
  (W8_arr m ρ c 2).trans (Region2.final (V7 m ρ) c)

/-- The result buffer's contents at the last boundary are `out` of the arguments as launched. -/
theorem value : W8 m ρ c (Proc.devRef .tc main_v62)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W8_v62, W7_v60, W7_v61, W6_v47, W6_src, W6_dst, W6_nrm, W6_arg4, W5_v45, W5_v46, W5_src, W5_dst, W5_nrm, W5_arg3, W5_arg4,
    W4_v32, W4_src, W4_dst, W4_nrm, W4_arg2, W4_arg3, W4_arg4, W3_src, W3_dst, W3_nrm, W3_arg2, W3_arg3, W3_arg4]
  rfl

/-- The kernel's run with its result at `out` of the arguments. -/
theorem run : θ_run defs (onTc (τ := τ) (main (F := Ideal))) ⟨m, fun _ => 0, ρ⟩ (fun r => ∀ c : Dev nD,
      r.2.mem ((c.tc : Thread nD τ).loc main_v62)
        = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (Cert.KernelIdeal.ValueRun.run m ρ)

end Cert.KernelIdeal.Walk

end
-- ==== Proof.RefGlue.lean ====
/-
  The host operations around the reference's dense stages, as named functions of arrays.

  The graph is given as a 2 × 1600000 table of node numbers, a row of sources and a row of destinations. Both programs
  append one self-loop per node (`srcIdx`, `dstIdx`: row 0 or 1 of the table followed by 0 … 99999), count each node's
  in-degree by scattering ones, take its reciprocal square root where positive (`invSqrtDeg`), and weight edge `e` by
  the product of that quantity at its two ends (`edgeNorm`), an index below zero first wrapped by the node count
  (`wrap`). One round of aggregation gathers a feature row per edge by source, scales it by the edge's weight, and
  scatter-adds it into a table of zeros by destination (`aggregate128`, `aggregate64`). These functions are never
  opened: the certificate only needs that both programs apply the same ones.
-/
import proofs.«168190_j32186484916266_1_alg».proof.Proof.Gen.ReferenceIdeal

noncomputable section

namespace Cert.ReferenceIdeal.Glue

open Cert.ReferenceIdeal Cert.ReferenceIdeal.Gen Idealize.ShloMosaic

variable {F : FTy → Type} [FloatOps F]

/-- Each edge's source node, the self-loops appended. -/
def srcIdx (x5 : (⟨S2x1600000, .i32⟩ : BufTy).Contents (Elt F)) : (⟨S1700000, .i32⟩ : BufTy).Contents (Elt F) :=
  concatenate S1700000 0 [⟨S1600000, (shapeCast _ (extractStridedSlice S1x1600000 ![0, 0] x5 slices_S2x1600000_S1x1600000_0_0) shapeCasts_S1x1600000_S1600000)⟩, ⟨S100000, (iotaInDim S100000 32 0)⟩] concatenates_S1600000_S100000_S1700000_d0

/-- Each edge's destination node, the self-loops appended. -/
def dstIdx (x5 : (⟨S2x1600000, .i32⟩ : BufTy).Contents (Elt F)) : (⟨S1700000, .i32⟩ : BufTy).Contents (Elt F) :=
  concatenate S1700000 0 [⟨S1600000, (shapeCast _ (extractStridedSlice S1x1600000 ![1, 0] x5 slices_S2x1600000_S1x1600000_1_0) shapeCasts_S1x1600000_S1600000)⟩, ⟨S100000, (iotaInDim S100000 32 0)⟩] concatenates_S1600000_S100000_S1700000_d0

/-- A node's in-degree: ones scatter-added by destination into zeros. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Where the degree is positive. -/
def degPositive (dst : (⟨S1700000, .i32⟩ : BufTy).Contents (Elt F)) : (⟨S100000, .i1⟩ : BufTy).Contents (Elt F) :=
  cmpf (F := F) .ogt (degree dst) (broadcastInDim S100000 ![] bcast_S_S100000 (constant S_ .f32 0x00000000#32))

/-- The reciprocal square root of the larger of the degree and one. -/
def rsqrtDeg (dst : (⟨S1700000, .i32⟩ : BufTy).Contents (Elt F)) : (⟨S100000, .f32⟩ : BufTy).Contents (Elt F) :=
  Host.rsqrt (maximumf (degree dst) (broadcastInDim S100000 ![] bcast_S_S100000 (constant S_ .f32 0x3F800000#32)))

/-- The outlined selection: the second array where the flags are set, a scalar spread over the nodes elsewhere. -/
def whereOr (flags : (⟨S100000, .i1⟩ : BufTy).Contents (Elt F)) (v : (⟨S100000, .f32⟩ : BufTy).Contents (Elt F))
    (z : (⟨S_, .f32⟩ : BufTy).Contents (Elt F)) : (⟨S100000, .f32⟩ : BufTy).Contents (Elt F) :=
  select flags v (broadcastInDim S100000 ![] bcast_S_S100000 (id z))

/-- The reciprocal square root of the larger of the degree and one where the degree is positive, zero elsewhere. -/
def invSqrtDeg (dst : (⟨S1700000, .i32⟩ : BufTy).Contents (Elt F)) : (⟨S100000, .f32⟩ : BufTy).Contents (Elt F) :=
  whereOr (degPositive dst) (rsqrtDeg dst) (constant S_ .f32 0x00000000#32)

/-- A node number below zero has the node count added. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- An edge's weight from a per-node factor: the product of the factor at its source and at its destination. -/
def edgeNormOf (inv : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 inv (broadcastInDim S1700000x1 ![0] bcast_S1700000_S1700000x1_0 (wrap src))) (Host.gather gather_S100000_S1700000x1_S1700000_n_0_n_n_0_1_1 inv (broadcastInDim S1700000x1 ![0] bcast_S1700000_S1700000x1_0 (wrap dst)))

/-- An edge's weight: the product of `invSqrtDeg` at its source and at its destination. -/
def edgeNorm (src dst : (⟨S1700000, .i32⟩ : BufTy).Contents (Elt F)) : (⟨S1700000, .f32⟩ : BufTy).Contents (Elt F) :=
  edgeNormOf (invSqrtDeg dst) src dst

/-- One round of aggregation over 128 features: rows gathered by source, scaled by the edge's weight, scatter-added by
    destination into zeros. -/
def aggregate128 (h : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 nrm)))

/-- One round of aggregation over 64 features. -/
def aggregate64 (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 nrm)))

end Cert.ReferenceIdeal.Glue

end
-- ==== Proof.LibHostLogSoftmax.lean ====
/-
  The host's spelling of a linear layer and of the row-wise log-softmax, read as the whole-array functions.

  The host writes a linear layer as a `dot_general` plus the bias broadcast in two steps to the matrix's shape, and the
  row-wise log-softmax as: the row maximum by a `reduce` from −∞ (then once more the maximum with a broadcast −∞,
  which changes nothing, the fold having started there), the difference, the exponential, the row sum by a `reduce` from
  zero, the logarithm, and the second difference — the maximum and the sum each set up as an `M × 1` column and
  repeated along the row. Entry by entry these are `lin` and `logSoftmax`.
-/
import Idealize.ShloMosaic.Lib.ValueIdx
import Idealize.ShloMosaic.Lib.Pipeline.Value
import Idealize.ShloMosaic.Lib.IdealHost
import Idealize.ShloMosaic.PureOps.Ideal.Laws
import proofs.«168190_j32186484916266_1_alg».proof.Proof.LibLogSoftmax

noncomputable section

open scoped BigOperators

namespace Cert.Lib.LogSoftmax

open Idealize.ShloMosaic Idealize.ShloMosaic.ValueIdx Cert.Lib.BiasDot Cert.Lib.Dense Cert.Lib.RowLayers

variable {M K N : Nat}

/-- The host's linear layer without a positive part: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- A vector of `M` row values set up as an `M × 1` column: at `(p, 0)`, the vector at `p`. -/
theorem colIn_apply {α : Type} (v : (⟨1, ![M]⟩ : Shape).Idx → α)
    (hb1 : (⟨1, ![M]⟩ : Shape).BroadcastsInDim ⟨2, ![M, 1]⟩ ![0]) (p : Fin M) :
    broadcastInDim ⟨2, ![M, 1]⟩ ![0] hb1 v (ix2 p (0 : Fin 1)) = v (ix1 p) := by
  refine broadcastInDim_apply ![0] hb1 v (ix2 p (0 : Fin 1)) (ix1 p) (fun a => ?_)
  match a with
  | ⟨0, _⟩ =>
    show p.val = if M = 1 then 0 else p.val
    split
    · have := p.isLt; omega
    · rfl

/-- An `M × 1` column repeated along `N` columns: at `(p, q)`, the column at `(p, 0)`. -/
theorem spreadIn_apply {α : Type} (v : (⟨2, ![M, 1]⟩ : Shape).Idx → α)
    (hb2 : (⟨2, ![M, 1]⟩ : Shape).BroadcastsInDim ⟨2, ![M, N]⟩ ![0, 1]) (p : Fin M) (q : Fin N) :
    broadcastInDim ⟨2, ![M, N]⟩ ![0, 1] hb2 v (ix2 p q) = v (ix2 p (0 : Fin 1)) := by
  refine broadcastInDim_apply ![0, 1] hb2 v (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- The host's row-wise shifted log-softmax is `logSoftmax`. -/
theorem host_logSoftmax (L : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf L (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu)))))
      (broadcastInDim ⟨2, ![M, N]⟩ ![0, 1] hb2 (Host.log (broadcastInDim ⟨2, ![M, 1]⟩ ![0] hb1
        (Host.reduceAdd
          (Host.exp (subf L (broadcastInDim ⟨2, ![M, N]⟩ ![0, 1] hb2 (broadcastInDim ⟨2, ![M, 1]⟩ ![0] hb1
            (maximumf (broadcastInDim ⟨1, ![M]⟩ ![] hb0 (constant (F := Ideal) ⟨0, ![]⟩ .f32 0xFF800000#32))
              (Host.reduce FloatOps.maximumf L (constant (F := Ideal) ⟨0, ![]⟩ .f32 0xFF800000#32) hr' hu))))))
          (constant (F := Ideal) ⟨0, ![]⟩ .f32 0x00000000#32) hr' hu))))
      = logSoftmax L := by
  have hmax : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu))) (ix2 p q)
        = rowMax L p := by
    intro p q
    rw [spreadIn_apply, colIn_apply, maximumf_apply, broadcastInDim_scalar_apply,
      Host.reduce_eq_fold_single FloatOps.maximumf L _ hr' hr hu (ix1 p)]
    have e : (L ∘ hr.lift (ix1 p)) = fun k : Fin N => L (ix2 p k) :=
      funext fun k => congrArg L (Cert.Lib.BlockOps.lift_row hr p k)
    rw [e]
    show max (Ideal.ofBits .f32 0xFF800000#32)
        ((Finset.univ : Finset (Fin N)).fold max (Ideal.ofBits .f32 0xFF800000#32) (fun k => L (ix2 p k))) = _
    exact max_eq_right ((Finset.le_fold_max _).mpr (Or.inl le_rfl))
  funext i
  obtain ⟨p, q, rfl⟩ : ∃ (p : Fin M) (q : Fin N), i = ix2 p q := ⟨i 0, i 1, eq_ix2 i⟩
  rw [subf_apply, subf_apply, hmax, spreadIn_apply, logSoftmax_apply]
  refine congrArg (fun s => (L (ix2 p q) - rowMax L p) - s) ?_
  show FloatOps.hostUnary .log (broadcastInDim (s := ⟨1, ![M]⟩) ⟨2, ![M, 1]⟩ ![0] hb1 _ (ix2 p (0 : Fin 1))) = _
  rw [colIn_apply]
  show Ideal.log (Ideal.hostReduceAdd hr' _ (Ideal.ofBits .f32 0x00000000#32) (ix1 p)) = _
  rw [Ideal.hostReduceAdd_single hr' hr, Ideal.ofBits_zero_f32, zero_add]
  refine congrArg Ideal.log (Finset.sum_congr (s₁ := (Finset.univ : Finset (Fin N))) rfl fun k _ => ?_)
  show FloatOps.hostUnary .exp (subf L _ (hr.lift (ix1 p) k)) = _
  rw [Cert.Lib.BlockOps.lift_row hr p k, subf_apply, hmax]
  rfl

end Cert.Lib.LogSoftmax

end
-- ==== Proof.LibTyped.lean ====
/-
  The contents of a typed reference, transported to its buffer's type and back.

  A value of an outlined function is held at a typed reference: its contents are carried to the buffer's own
  type (`toBuf`) when written and back (`ofBuf`) when read, both along the reference's type equation. Carried
  there and back — a result written by one operation and read by the next — they are unchanged. Stated for any
  typed reference, so a rewriting pass can drop every such pair without computing a buffer's type.
-/
import Idealize.ShloMosaic.Lib.StableHlo

namespace Cert.Lib.Typed

open Idealize.ShloMosaic Idealize.ShloMosaic.StableHlo

variable {sig : RefSig} {Val : EltTy → Type} {T : BufTy}

/-- Written to the buffer's type and read back at the value's type: unchanged. -/
theorem ofBuf_toBuf (x : TRef sig T) (v : T.Contents Val) : x.ofBuf (x.toBuf v) = v := by
  obtain ⟨r, h, h1, h2⟩ := x
  subst h
  rfl

/-- Read at the value's type and written back to the buffer's type: unchanged. -/
theorem toBuf_ofBuf (x : TRef sig T) (v : x.ref.ty.Contents Val) : x.toBuf (x.ofBuf v) = v := by
  obtain ⟨r, h, h1, h2⟩ := x
  subst h
  rfl

end Cert.Lib.Typed
-- ==== Proof.RefValue.lean ====
/-
  The reference's run, read back in stages, and its result as the network's whole-array functions.

  The reference's @main is a straight line of 101 host operations, three outlined functions inlined. Every weakly fair
  execution ends with each buffer at the fold of the operations' results over the launch contents. The fold is read
  back stage by stage, each stage over an arbitrary previous valuation, so that no term grows: the edge lists and the
  per-node degree facts; the outlined selection; the edge weights; the first product and its aggregation; the first bias
  added; the outlined positive part; the second product and its aggregation; the second bias added; the outlined
  log-softmax. A stage leaves every buffer it does not write as it found it.

  Composed, the result is the host's log-softmax spelling (`hostLogSoftmax`) of the logits (`logits`). Entry by entry the
  products, the bias additions, the positive part and the log-softmax are the whole-array functions `mm`, `addRow`,
  `relu`, `logSoftmax` (the host's maximum of the row maximum with −∞ once more changes nothing); the aggregations are
  carried as they are.
-/
import proofs.«168190_j32186484916266_1_alg».proof.Proof.RefRun
import proofs.«168190_j32186484916266_1_alg».proof.Proof.RefGlue
import proofs.«168190_j32186484916266_1_alg».proof.Proof.LibHostLogSoftmax
import proofs.«168190_j32186484916266_1_alg».proof.Proof.LibAfter
import proofs.«168190_j32186484916266_1_alg».proof.Proof.LibTyped

set_option maxRecDepth 65536

noncomputable section

namespace Cert.ReferenceIdeal.RefValue

open Cert.ReferenceIdeal Cert.ReferenceIdeal.Gen Cert.ReferenceIdeal.Glue
open Idealize.ShloMosaic Idealize.ShloMosaic.TcCoe Idealize.SL.Sem Idealize.ShloMosaic.StableHlo
open Cert.Lib.Dense Cert.Lib.LogSoftmax

/-! ## The staged functions -/

section Staged

variable {F : FTy → Type} [FloatOps F]

/-- The product of the features with the first weight. -/
def project1 (x0 : (⟨S100000x500, .f32⟩ : BufTy).Contents (Elt F)) (x1 : (⟨S500x128, .f32⟩ : BufTy).Contents (Elt F)) : (⟨S100000x128, .f32⟩ : BufTy).Contents (Elt F) :=
  Host.dotGeneral dot_S100000x500_S500x128_S100000x128_1_0_0_1_n_n none x0 x1

/-- The product of the hidden activations with the second weight. -/
def project2 (h : (⟨S100000x128, .f32⟩ : BufTy).Contents (Elt F)) (x3 : (⟨S128x64, .f32⟩ : BufTy).Contents (Elt F)) : (⟨S100000x64, .f32⟩ : BufTy).Contents (Elt F) :=
  Host.dotGeneral dot_S100000x128_S128x64_S100000x64_1_0_0_1_n_n none h x3

/-- The first bias broadcast in two steps and added. -/
def addBias128 (a : (⟨S100000x128, .f32⟩ : BufTy).Contents (Elt F)) (b : (⟨S128, .f32⟩ : BufTy).Contents (Elt F)) : (⟨S100000x128, .f32⟩ : BufTy).Contents (Elt F) :=
  addf a (broadcastInDim S100000x128 ![0, 1] bcast_S1x128_S100000x128_0_1 (broadcastInDim S1x128 ![1] bcast_S128_S1x128_1 b))

/-- The outlined positive part: the maximum with a broadcast zero. -/
def hostRelu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The second bias broadcast in two steps and added. -/
def addBias64 (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

/-- The host's row-wise shifted log-softmax of a 100000 × 64 array, as its outlined function spells it. -/
def hostLogSoftmax (L : (⟨S100000x64, .f32⟩ : BufTy).Contents (Elt F)) : (⟨S100000x64, .f32⟩ : BufTy).Contents (Elt F) :=
  subf (subf L (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x64_S100000_d1 h_S_))))) (broadcastInDim S100000x64 ![0, 1] bcast_S100000x1_S100000x64_0_1 (Host.log (broadcastInDim S100000x1 ![0] bcast_S100000_S100000x1_0 (Host.reduceAdd (Host.exp (subf L (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x64_S100000_d1 h_S_)))))) (constant S_ .f32 0x00000000#32) reducesTo_S100000x64_S100000_d1 h_S_))))

/-- What the reference feeds its log-softmax. -/
def logits (x0 : (⟨S100000x500, .f32⟩ : BufTy).Contents (Elt F)) (x1 : (⟨S500x128, .f32⟩ : BufTy).Contents (Elt F))
    (x2 : (⟨S128, .f32⟩ : BufTy).Contents (Elt F)) (x3 : (⟨S128x64, .f32⟩ : BufTy).Contents (Elt F))
    (x4 : (⟨S64, .f32⟩ : BufTy).Contents (Elt F)) (x5 : (⟨S2x1600000, .i32⟩ : BufTy).Contents (Elt F)) :
    (⟨S100000x64, .f32⟩ : BufTy).Contents (Elt F) :=
  addBias64 (aggregate64 (project2
      (hostRelu (addBias128 (aggregate128 (project1 x0 x1)
        (srcIdx x5) (dstIdx x5) (edgeNorm (srcIdx x5) (dstIdx x5))) x2)) x3)
    (srcIdx x5) (dstIdx x5) (edgeNorm (srcIdx x5) (dstIdx x5))) x4

/-- The reference's result as a function of its six arguments, in the host's spelling. -/
def out (x0 : (⟨S100000x500, .f32⟩ : BufTy).Contents (Elt F)) (x1 : (⟨S500x128, .f32⟩ : BufTy).Contents (Elt F))
    (x2 : (⟨S128, .f32⟩ : BufTy).Contents (Elt F)) (x3 : (⟨S128x64, .f32⟩ : BufTy).Contents (Elt F))
    (x4 : (⟨S64, .f32⟩ : BufTy).Contents (Elt F)) (x5 : (⟨S2x1600000, .i32⟩ : BufTy).Contents (Elt F)) :
    (⟨S100000x64, .f32⟩ : BufTy).Contents (Elt F) :=
  hostLogSoftmax (logits x0 x1 x2 x3 x4 x5)

end Staged

/-- The same as the network's whole-array functions around the two aggregations. -/
def net (x0 : (⟨S100000x500, .f32⟩ : BufTy).Contents (Elt Ideal)) (x1 : (⟨S500x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S2x1600000, .i32⟩ : BufTy).Contents (Elt Ideal)) :
    (⟨S100000x64, .f32⟩ : BufTy).Contents (Elt Ideal) :=
  logSoftmax (addRow (aggregate64 (mm (relu (addRow (aggregate128 (mm x0 x1) (srcIdx x5) (dstIdx x5) (edgeNorm (srcIdx x5) (dstIdx x5))) x2)) x3) (srcIdx x5) (dstIdx x5) (edgeNorm (srcIdx x5) (dstIdx x5))) x4)

/-! ## The operation list in nine stages -/

section Stages

variable {F : FTy → Type} [FloatOps F]

abbrev opsA1 : List (HloOp τ sig (Elt F)) :=
  [ nullary main_v0 (iotaInDim S100000 32 0),
    unary main_arg5 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg5 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

abbrev opsA2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

abbrev opsA3 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

abbrev opsB : List (HloOp τ sig (Elt F)) :=
  [ binary main_arg0 main_arg1 main_v32 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

abbrev opsC1 : List (HloOp τ sig (Elt F)) :=
  [ unary main_arg2 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

abbrev opsC2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

abbrev opsC3 : List (HloOp τ sig (Elt F)) :=
  [ binary main_v49 main_arg3 main_v50 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v59 main_v60 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

abbrev opsD1 : List (HloOp τ sig (Elt F)) :=
  [ unary main_arg4 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)) ]

abbrev opsD2 : List (HloOp τ sig (Elt F)) :=
  [ TRef.nullary (TRef.of (T := ⟨S_, .f32⟩) main_call2_cst) (constant S_ .f32 0xFF800000#32),
    TRef.binary (TRef.of (T := ⟨S100000x64, .f32⟩) main_v66) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v66) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v67) subf ]

set_option maxRecDepth 1000000 in
/-- The stages, in order, are the program's operation list. -/
theorem ops_split : (Cert.ReferenceIdeal.ValueP.ops : List (HloOp τ sig (Elt F)))
    = opsA1 ++ (opsA2 ++ (opsA3 ++ (opsB ++ (opsC1 ++ (opsC2 ++ (opsC3 ++ (opsD1 ++ opsD2))))))) := rfl

end Stages

/-! ## Each stage read back over an arbitrary previous valuation -/

theorem a1_src (V : Valuation τ sig (Elt Ideal)) : after opsA1 V (Proc.devRef .tc main_v3) = srcIdx (V (Proc.devRef .tc main_arg5)) := by
  read_fold <;> rfl
theorem a1_dst (V : Valuation τ sig (Elt Ideal)) : after opsA1 V (Proc.devRef .tc main_v6) = dstIdx (V (Proc.devRef .tc main_arg5)) := by
  read_fold <;> rfl
theorem a1_pos (V : Valuation τ sig (Elt Ideal)) : after opsA1 V (Proc.devRef .tc main_v12) = degPositive (dstIdx (V (Proc.devRef .tc main_arg5))) := by
  read_fold <;> rfl
theorem a1_rs (V : Valuation τ sig (Elt Ideal)) : after opsA1 V (Proc.devRef .tc main_v15) = rsqrtDeg (dstIdx (V (Proc.devRef .tc main_arg5))) := by
  read_fold <;> rfl
theorem a1_zero (V : Valuation τ sig (Elt Ideal)) : after opsA1 V (Proc.devRef .tc main_cst_3) = constant (F := Ideal) S_ .f32 0x00000000#32 := by
  read_fold <;> rfl
theorem kA1_arg0 (V : Valuation τ sig (Elt Ideal)) : after opsA1 V (Proc.devRef .tc main_arg0) = V (Proc.devRef .tc main_arg0) := by
  read_fold <;> rfl
theorem kA1_arg1 (V : Valuation τ sig (Elt Ideal)) : after opsA1 V (Proc.devRef .tc main_arg1) = V (Proc.devRef .tc main_arg1) := by
  read_fold <;> rfl
theorem kA1_arg2 (V : Valuation τ sig (Elt Ideal)) : after opsA1 V (Proc.devRef .tc main_arg2) = V (Proc.devRef .tc main_arg2) := by
  read_fold <;> rfl
theorem kA1_arg3 (V : Valuation τ sig (Elt Ideal)) : after opsA1 V (Proc.devRef .tc main_arg3) = V (Proc.devRef .tc main_arg3) := by
  read_fold <;> rfl
theorem kA1_arg4 (V : Valuation τ sig (Elt Ideal)) : after opsA1 V (Proc.devRef .tc main_arg4) = V (Proc.devRef .tc main_arg4) := by
  read_fold <;> rfl

theorem a2_inv (V : Valuation τ sig (Elt Ideal)) : after opsA2 V (Proc.devRef .tc main_v16)
    = whereOr (V (Proc.devRef .tc main_v12)) (V (Proc.devRef .tc main_v15)) (V (Proc.devRef .tc main_cst_3)) := by
  read_fold <;> rfl
theorem kA2_v3 (V : Valuation τ sig (Elt Ideal)) : after opsA2 V (Proc.devRef .tc main_v3) = V (Proc.devRef .tc main_v3) := by
  read_fold <;> rfl
theorem kA2_v6 (V : Valuation τ sig (Elt Ideal)) : after opsA2 V (Proc.devRef .tc main_v6) = V (Proc.devRef .tc main_v6) := by
  read_fold <;> rfl
theorem kA2_arg0 (V : Valuation τ sig (Elt Ideal)) : after opsA2 V (Proc.devRef .tc main_arg0) = V (Proc.devRef .tc main_arg0) := by
  read_fold <;> rfl
theorem kA2_arg1 (V : Valuation τ sig (Elt Ideal)) : after opsA2 V (Proc.devRef .tc main_arg1) = V (Proc.devRef .tc main_arg1) := by
  read_fold <;> rfl
theorem kA2_arg2 (V : Valuation τ sig (Elt Ideal)) : after opsA2 V (Proc.devRef .tc main_arg2) = V (Proc.devRef .tc main_arg2) := by
  read_fold <;> rfl
theorem kA2_arg3 (V : Valuation τ sig (Elt Ideal)) : after opsA2 V (Proc.devRef .tc main_arg3) = V (Proc.devRef .tc main_arg3) := by
  read_fold <;> rfl
theorem kA2_arg4 (V : Valuation τ sig (Elt Ideal)) : after opsA2 V (Proc.devRef .tc main_arg4) = V (Proc.devRef .tc main_arg4) := by
  read_fold <;> rfl

theorem a3_nrm (V : Valuation τ sig (Elt Ideal)) : after opsA3 V (Proc.devRef .tc main_v31)
    = edgeNormOf (V (Proc.devRef .tc main_v16)) (V (Proc.devRef .tc main_v3)) (V (Proc.devRef .tc main_v6)) := by
  read_fold <;> rfl
theorem kA3_v3 (V : Valuation τ sig (Elt Ideal)) : after opsA3 V (Proc.devRef .tc main_v3) = V (Proc.devRef .tc main_v3) := by
  read_fold <;> rfl
theorem kA3_v6 (V : Valuation τ sig (Elt Ideal)) : after opsA3 V (Proc.devRef .tc main_v6) = V (Proc.devRef .tc main_v6) := by
  read_fold <;> rfl
theorem kA3_arg0 (V : Valuation τ sig (Elt Ideal)) : after opsA3 V (Proc.devRef .tc main_arg0) = V (Proc.devRef .tc main_arg0) := by
  read_fold <;> rfl
theorem kA3_arg1 (V : Valuation τ sig (Elt Ideal)) : after opsA3 V (Proc.devRef .tc main_arg1) = V (Proc.devRef .tc main_arg1) := by
  read_fold <;> rfl
theorem kA3_arg2 (V : Valuation τ sig (Elt Ideal)) : after opsA3 V (Proc.devRef .tc main_arg2) = V (Proc.devRef .tc main_arg2) := by
  read_fold <;> rfl
theorem kA3_arg3 (V : Valuation τ sig (Elt Ideal)) : after opsA3 V (Proc.devRef .tc main_arg3) = V (Proc.devRef .tc main_arg3) := by
  read_fold <;> rfl
theorem kA3_arg4 (V : Valuation τ sig (Elt Ideal)) : after opsA3 V (Proc.devRef .tc main_arg4) = V (Proc.devRef .tc main_arg4) := by
  read_fold <;> rfl

theorem b_agg (V : Valuation τ sig (Elt Ideal)) : after opsB V (Proc.devRef .tc main_v45)
    = aggregate128 (project1 (V (Proc.devRef .tc main_arg0)) (V (Proc.devRef .tc main_arg1)))
        (V (Proc.devRef .tc main_v3)) (V (Proc.devRef .tc main_v6)) (V (Proc.devRef .tc main_v31)) := by
  read_fold <;> rfl
theorem kB_arg2 (V : Valuation τ sig (Elt Ideal)) : after opsB V (Proc.devRef .tc main_arg2) = V (Proc.devRef .tc main_arg2) := by
  read_fold <;> rfl
theorem kB_arg3 (V : Valuation τ sig (Elt Ideal)) : after opsB V (Proc.devRef .tc main_arg3) = V (Proc.devRef .tc main_arg3) := by
  read_fold <;> rfl
theorem kB_arg4 (V : Valuation τ sig (Elt Ideal)) : after opsB V (Proc.devRef .tc main_arg4) = V (Proc.devRef .tc main_arg4) := by
  read_fold <;> rfl
theorem kB_v3 (V : Valuation τ sig (Elt Ideal)) : after opsB V (Proc.devRef .tc main_v3) = V (Proc.devRef .tc main_v3) := by
  read_fold <;> rfl
theorem kB_v6 (V : Valuation τ sig (Elt Ideal)) : after opsB V (Proc.devRef .tc main_v6) = V (Proc.devRef .tc main_v6) := by
  read_fold <;> rfl
theorem kB_v31 (V : Valuation τ sig (Elt Ideal)) : after opsB V (Proc.devRef .tc main_v31) = V (Proc.devRef .tc main_v31) := by
  read_fold <;> rfl

theorem c1_bias (V : Valuation τ sig (Elt Ideal)) : after opsC1 V (Proc.devRef .tc main_v48)
    = addBias128 (V (Proc.devRef .tc main_v45)) (V (Proc.devRef .tc main_arg2)) := by
  read_fold <;> rfl
theorem kC1_arg3 (V : Valuation τ sig (Elt Ideal)) : after opsC1 V (Proc.devRef .tc main_arg3) = V (Proc.devRef .tc main_arg3) := by
  read_fold <;> rfl
theorem kC1_v3 (V : Valuation τ sig (Elt Ideal)) : after opsC1 V (Proc.devRef .tc main_v3) = V (Proc.devRef .tc main_v3) := by
  read_fold <;> rfl
theorem kC1_v6 (V : Valuation τ sig (Elt Ideal)) : after opsC1 V (Proc.devRef .tc main_v6) = V (Proc.devRef .tc main_v6) := by
  read_fold <;> rfl
theorem kC1_v31 (V : Valuation τ sig (Elt Ideal)) : after opsC1 V (Proc.devRef .tc main_v31) = V (Proc.devRef .tc main_v31) := by
  read_fold <;> rfl
theorem kC1_arg4 (V : Valuation τ sig (Elt Ideal)) : after opsC1 V (Proc.devRef .tc main_arg4) = V (Proc.devRef .tc main_arg4) := by
  read_fold <;> rfl

theorem c2_relu (V : Valuation τ sig (Elt Ideal)) : after opsC2 V (Proc.devRef .tc main_v49) = hostRelu (V (Proc.devRef .tc main_v48)) := by
  read_fold
  simp only [Cert.Lib.Typed.ofBuf_toBuf, Cert.Lib.Typed.toBuf_ofBuf]
  rfl
theorem kC2_arg3 (V : Valuation τ sig (Elt Ideal)) : after opsC2 V (Proc.devRef .tc main_arg3) = V (Proc.devRef .tc main_arg3) := by
  read_fold <;> rfl
theorem kC2_v3 (V : Valuation τ sig (Elt Ideal)) : after opsC2 V (Proc.devRef .tc main_v3) = V (Proc.devRef .tc main_v3) := by
  read_fold <;> rfl
theorem kC2_v6 (V : Valuation τ sig (Elt Ideal)) : after opsC2 V (Proc.devRef .tc main_v6) = V (Proc.devRef .tc main_v6) := by
  read_fold <;> rfl
theorem kC2_v31 (V : Valuation τ sig (Elt Ideal)) : after opsC2 V (Proc.devRef .tc main_v31) = V (Proc.devRef .tc main_v31) := by
  read_fold <;> rfl
theorem kC2_arg4 (V : Valuation τ sig (Elt Ideal)) : after opsC2 V (Proc.devRef .tc main_arg4) = V (Proc.devRef .tc main_arg4) := by
  read_fold <;> rfl

theorem c3_agg (V : Valuation τ sig (Elt Ideal)) : after opsC3 V (Proc.devRef .tc main_v63)
    = aggregate64 (project2 (V (Proc.devRef .tc main_v49)) (V (Proc.devRef .tc main_arg3)))
        (V (Proc.devRef .tc main_v3)) (V (Proc.devRef .tc main_v6)) (V (Proc.devRef .tc main_v31)) := by
  read_fold <;> rfl
theorem kC3_arg4 (V : Valuation τ sig (Elt Ideal)) : after opsC3 V (Proc.devRef .tc main_arg4) = V (Proc.devRef .tc main_arg4) := by
  read_fold <;> rfl

theorem d1_bias (V : Valuation τ sig (Elt Ideal)) : after opsD1 V (Proc.devRef .tc main_v66)
    = addBias64 (V (Proc.devRef .tc main_v63)) (V (Proc.devRef .tc main_arg4)) := by
  read_fold <;> rfl

theorem d2_lsm (V : Valuation τ sig (Elt Ideal)) : after opsD2 V (Proc.devRef .tc main_v67) = hostLogSoftmax (V (Proc.devRef .tc main_v66)) := by
  read_fold
  simp only [Cert.Lib.Typed.ofBuf_toBuf, Cert.Lib.Typed.toBuf_ofBuf]
  rfl

/-! ## The whole line -/

/-- The result buffer after the whole line, from any valuation, is `out` of the argument buffers' contents. -/
theorem value (V : Valuation τ sig (Elt Ideal)) :
    after (Cert.ReferenceIdeal.ValueP.ops (F := Ideal)) V (Proc.devRef .tc main_v67)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split]
  simp only [StableHlo.after_append]
  rw [d2_lsm, d1_bias, c3_agg, kC3_arg4, c2_relu, kC2_arg3, kC2_v3, kC2_v6, kC2_v31, kC2_arg4,
    c1_bias, kC1_arg3, kC1_v3, kC1_v6, kC1_v31, kC1_arg4, b_agg, kB_arg2, kB_arg3, kB_arg4, kB_v3, kB_v6, kB_v31,
    a3_nrm, kA3_v3, kA3_v6, kA3_arg0, kA3_arg1, kA3_arg2, kA3_arg3, kA3_arg4,
    a2_inv, kA2_v3, kA2_v6, kA2_arg0, kA2_arg1, kA2_arg2, kA2_arg3, kA2_arg4,
    a1_src, a1_dst, a1_pos, a1_rs, a1_zero, kA1_arg0, kA1_arg1, kA1_arg2, kA1_arg3, kA1_arg4]
  rfl

theorem kept_arg0 (V : Valuation τ sig (Elt Ideal)) :
    after (Cert.ReferenceIdeal.ValueP.ops (F := Ideal)) V (Proc.devRef .tc main_arg0) = V (Proc.devRef .tc main_arg0) := by
  read_fold <;> rfl
theorem kept_arg1 (V : Valuation τ sig (Elt Ideal)) :
    after (Cert.ReferenceIdeal.ValueP.ops (F := Ideal)) V (Proc.devRef .tc main_arg1) = V (Proc.devRef .tc main_arg1) := by
  read_fold <;> rfl
theorem kept_arg2 (V : Valuation τ sig (Elt Ideal)) :
    after (Cert.ReferenceIdeal.ValueP.ops (F := Ideal)) V (Proc.devRef .tc main_arg2) = V (Proc.devRef .tc main_arg2) := by
  read_fold <;> rfl
theorem kept_arg3 (V : Valuation τ sig (Elt Ideal)) :
    after (Cert.ReferenceIdeal.ValueP.ops (F := Ideal)) V (Proc.devRef .tc main_arg3) = V (Proc.devRef .tc main_arg3) := by
  read_fold <;> rfl
theorem kept_arg4 (V : Valuation τ sig (Elt Ideal)) :
    after (Cert.ReferenceIdeal.ValueP.ops (F := Ideal)) V (Proc.devRef .tc main_arg4) = V (Proc.devRef .tc main_arg4) := by
  read_fold <;> rfl
theorem kept_arg5 (V : Valuation τ sig (Elt Ideal)) :
    after (Cert.ReferenceIdeal.ValueP.ops (F := Ideal)) V (Proc.devRef .tc main_arg5) = V (Proc.devRef .tc main_arg5) := by
  read_fold <;> rfl

/-- Every weakly fair execution of the reference terminates with its result at `out` of the arguments and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v67).trans (value (launchContents m c)),
       (h c main_arg0).trans (kept_arg0 (launchContents m c)),
       (h c main_arg1).trans (kept_arg1 (launchContents m c)),
       (h c main_arg2).trans (kept_arg2 (launchContents m c)),
       (h c main_arg3).trans (kept_arg3 (launchContents m c)),
       (h c main_arg4).trans (kept_arg4 (launchContents m c)),
       (h c main_arg5).trans (kept_arg5 (launchContents m c))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

/-! ## The host's spelling is the network's -/

/-- The logits are the second bias row added to the second aggregation of the hidden stage's product. -/
theorem logits_eq (x0 : (⟨S100000x500, .f32⟩ : BufTy).Contents (Elt Ideal)) (x1 : (⟨S500x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S2x1600000, .i32⟩ : BufTy).Contents (Elt Ideal)) :
    logits x0 x1 x2 x3 x4 x5
      = addRow (aggregate64 (mm (relu (addRow (aggregate128 (mm x0 x1) (srcIdx x5) (dstIdx x5) (edgeNorm (srcIdx x5) (dstIdx x5))) x2)) x3) (srcIdx x5) (dstIdx x5) (edgeNorm (srcIdx x5) (dstIdx x5))) x4 := by
  unfold logits addBias64 hostRelu addBias128 project1 project2
  rw [host_addRow, host_mm dot_S100000x128_S128x64_S100000x64_1_0_0_1_n_n rfl, host_addRow_relu,
    host_mm dot_S100000x500_S500x128_S100000x128_1_0_0_1_n_n rfl]

/-- The host's spelling is the network's. -/
theorem out_eq (x0 : (⟨S100000x500, .f32⟩ : BufTy).Contents (Elt Ideal)) (x1 : (⟨S500x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S2x1600000, .i32⟩ : BufTy).Contents (Elt Ideal)) :
    out x0 x1 x2 x3 x4 x5 = net x0 x1 x2 x3 x4 x5 := by
  unfold out net hostLogSoftmax
  rw [host_logSoftmax (logits x0 x1 x2 x3 x4 x5) reducesTo_S100000x64_S100000_d1 (by decide) h_S_ bcast_S_S100000 bcast_S100000_S100000x1_0 bcast_S100000x1_S100000x64_0_1,
    logits_eq]

end Cert.ReferenceIdeal.RefValue

end
-- ==== Proof.Bridge.lean ====
/-
  The two programs compute one function of the arguments.

  Around their dense stages both programs apply the same host operations: the same edge lists with self-loops, the same
  edge weights, the same two rounds of gather, scale and scatter-add (the kernel program's and the reference's printed
  functions are the same terms over the same literal shapes). The kernel program's dense stages are the hidden stage and
  the output stage with each bias vector reshaped to a row; a vector reshaped to a row and read back as a vector is the
  vector, so these are the reference's bias additions, positive part, products and log-softmax, stage by stage. No
  arithmetic law is needed: both sides are the same composition.
-/
import proofs.«168190_j32186484916266_1_alg».proof.Proof.KernelValue
import proofs.«168190_j32186484916266_1_alg».proof.Proof.RefValue

set_option maxRecDepth 65536

noncomputable section

namespace Cert.Bridge

open Idealize.ShloMosaic

theorem srcIdx_eq (x5 : (⟨Cert.KernelIdeal.S2x1600000, .i32⟩ : BufTy).Contents (Elt Ideal)) :
    Cert.KernelIdeal.Glue.srcIdx x5 = Cert.ReferenceIdeal.Glue.srcIdx x5 := rfl

theorem dstIdx_eq (x5 : (⟨Cert.KernelIdeal.S2x1600000, .i32⟩ : BufTy).Contents (Elt Ideal)) :
    Cert.KernelIdeal.Glue.dstIdx x5 = Cert.ReferenceIdeal.Glue.dstIdx x5 := rfl

theorem edgeNorm_eq (s d : (⟨Cert.KernelIdeal.S1700000, .i32⟩ : BufTy).Contents (Elt Ideal)) :
    Cert.KernelIdeal.Glue.edgeNorm (F := Ideal) s d = Cert.ReferenceIdeal.Glue.edgeNorm s d := rfl

theorem aggregate128_eq (h : (⟨Cert.KernelIdeal.S100000x128, .f32⟩ : BufTy).Contents (Elt Ideal)) (s d : (⟨Cert.KernelIdeal.S1700000, .i32⟩ : BufTy).Contents (Elt Ideal)) (n : (⟨Cert.KernelIdeal.S1700000, .f32⟩ : BufTy).Contents (Elt Ideal)) :
    Cert.KernelIdeal.Glue.aggregate128 h s d n = Cert.ReferenceIdeal.Glue.aggregate128 h s d n := rfl

theorem aggregate64_eq (h : (⟨Cert.KernelIdeal.S100000x64, .f32⟩ : BufTy).Contents (Elt Ideal)) (s d : (⟨Cert.KernelIdeal.S1700000, .i32⟩ : BufTy).Contents (Elt Ideal)) (n : (⟨Cert.KernelIdeal.S1700000, .f32⟩ : BufTy).Contents (Elt Ideal)) :
    Cert.KernelIdeal.Glue.aggregate64 h s d n = Cert.ReferenceIdeal.Glue.aggregate64 h s d n := rfl

/-- The kernel program's result function is the reference's. -/
theorem out_eq (x0 : (⟨Cert.KernelIdeal.S100000x500, .f32⟩ : BufTy).Contents (Elt Ideal)) (x1 : (⟨Cert.KernelIdeal.S500x128, .f32⟩ : BufTy).Contents (Elt Ideal))
    (x2 : (⟨Cert.KernelIdeal.S128, .f32⟩ : BufTy).Contents (Elt Ideal)) (x3 : (⟨Cert.KernelIdeal.S128x64, .f32⟩ : BufTy).Contents (Elt Ideal))
    (x4 : (⟨Cert.KernelIdeal.S64, .f32⟩ : BufTy).Contents (Elt Ideal)) (x5 : (⟨Cert.KernelIdeal.S2x1600000, .i32⟩ : BufTy).Contents (Elt Ideal)) :
    Cert.KernelIdeal.Walk.out x0 x1 x2 x3 x4 x5 = Cert.ReferenceIdeal.RefValue.out x0 x1 x2 x3 x4 x5 := by
  rw [Cert.ReferenceIdeal.RefValue.out_eq]
  unfold Cert.KernelIdeal.Walk.out Cert.ReferenceIdeal.RefValue.net Cert.Lib.RowStages.scores Cert.Lib.RowStages.hidden
  rw [Cert.Lib.RowLayers.rowVec_reshape, Cert.Lib.RowLayers.rowVec_reshape, aggregate128_eq, aggregate64_eq, edgeNorm_eq,
    srcIdx_eq, dstIdx_eq]

end Cert.Bridge

end
-- ==== Proof.lean ====
/-
  A two-layer graph convolution with a log-softmax head, as three tiled kernels among host gathers and scatter-adds,
  against its plain reference: the two idealized programs, run from memories that agree on the arguments, end with equal
  results as extended reals, and each program runs to the end leaving its arguments unchanged.

  Both programs compute, from the features x, the weights W1, W2, the biases b1, b2 and the edge table,
      logSoftmax (A (relu (A (x · W1) + b1) · W2) + b2)
  where A is one round of normalised neighbour aggregation (gather by source, scale by the edge's weight, scatter-add by
  destination) over the edges with self-loops. The kernel program computes x · W1, relu (· + b1) · W2 and
  logSoftmax (· + b2) in kernels over blocks of 2000 node rows, operands narrowed to a shorter float format before each
  product; at the ideal values narrowing is the identity and a product accumulated into zero is the product, every
  stage reads one node row at a time so the blocks assemble into the whole-array stage, and the aggregations between the
  kernels are the reference's own operations. No law of arithmetic beyond this is used, and the finiteness of the inputs
  is not needed.
-/
import proofs.«168190_j32186484916266_1_alg».proof.Defs
import proofs.«168190_j32186484916266_1_alg».proof.Proof.Gen.Kernel
import proofs.«168190_j32186484916266_1_alg».proof.Proof.Gen.Kernel.Frame
import proofs.«168190_j32186484916266_1_alg».proof.Proof.Gen.KernelIdeal
import proofs.«168190_j32186484916266_1_alg».proof.Proof.Gen.KernelIdeal.Frame
import proofs.«168190_j32186484916266_1_alg».proof.Proof.Gen.ReferenceIdeal
import proofs.«168190_j32186484916266_1_alg».proof.Proof.Gen.Pre_finite_inputs
import proofs.«168190_j32186484916266_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both idealized programs end with the result array at the same function of the arguments. -/
theorem algebraic : Cert.algebraic_KernelIdeal_ReferenceIdeal := by
  intro m ρ m' ρ' _ hagree
  refine ⟨_, Cert.KernelIdeal.Walk.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1,
    (hagree c).2.2.2.2.1, (hagree c).2.2.2.2.2]
  exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
